-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x32x512x512 : Shape := ⟨4, ![3, 32, 512, 512]⟩
abbrev S32x512x256 : Shape := ⟨3, ![32, 512, 256]⟩
abbrev S32x512x1 : Shape := ⟨3, ![32, 512, 1]⟩
abbrev S6x256x256 : Shape := ⟨3, ![6, 256, 256]⟩
abbrev S6x256 : Shape := ⟨2, ![6, 256]⟩
abbrev S256x1536 : Shape := ⟨2, ![256, 1536]⟩
abbrev S256 : Shape := ⟨1, ![256]⟩
abbrev S_ : Shape := ⟨0, ![]⟩

class Facts : Prop where
  bcast_S_S3x32x512x512 : S_.BroadcastsInDim S3x32x512x512 (![] : Fin 0 → Fin S3x32x512x512.rank)
  reducesTo_S3x32x512x512_S_d0_1_2_3 : S3x32x512x512.ReducesTo [0, 1, 2, 3] S_
  h_S_ : 0 < S_.numel
  bcast_S_S32x512x256 : S_.BroadcastsInDim S32x512x256 (![] : Fin 0 → Fin S32x512x256.rank)
  reducesTo_S32x512x256_S_d0_1_2 : S32x512x256.ReducesTo [0, 1, 2] S_
  bcast_S_S32x512x1 : S_.BroadcastsInDim S32x512x1 (![] : Fin 0 → Fin S32x512x1.rank)
  reducesTo_S32x512x1_S_d0_1_2 : S32x512x1.ReducesTo [0, 1, 2] S_
  bcast_S_S6x256x256 : S_.BroadcastsInDim S6x256x256 (![] : Fin 0 → Fin S6x256x256.rank)
  reducesTo_S6x256x256_S_d0_1_2 : S6x256x256.ReducesTo [0, 1, 2] S_
  bcast_S_S6x256 : S_.BroadcastsInDim S6x256 (![] : Fin 0 → Fin S6x256.rank)
  reducesTo_S6x256_S_d0_1 : S6x256.ReducesTo [0, 1] S_
  bcast_S_S256x1536 : S_.BroadcastsInDim S256x1536 (![] : Fin 0 → Fin S256x1536.rank)
  reducesTo_S256x1536_S_d0_1 : S256x1536.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S6x256x256 .f32) (main_arg5 : FVec F S6x256 .f32) (main_arg6 : FVec F S256x1536 .f32) (main_arg7 : FVec F S256 .f32) (main_v13 : IVec S_ 1) (main_v16 : IVec S32x512x1 1) : IVec S_ 1 :=
  let main_c_5 : IVec S_ 1 := constantI S_ 1 1#1
  let main_v17 : IVec S_ 1 := (fun x v => Host.reduce IntOp.andi x v reducesTo_S32x512x1_S_d0_1_2 h_S_) main_v16 main_c_5
  let main_v18 : IVec S_ 1 := andi main_v13 main_v17
  let main_v19 : FVec F S6x256x256 .f32 := Host.absf main_arg4
  let main_cst_6 : FVec F S_ .f32 := constant S_ .f32 0x7F800000#32
  let main_v20 : FVec F S6x256x256 .f32 := broadcastInDim S6x256x256 ![] bcast_S_S6x256x256 main_cst_6
  let main_v21 : IVec S6x256x256 1 := cmpf .olt main_v19 main_v20
  let main_c_7 : IVec S_ 1 := constantI S_ 1 1#1
  let main_v22 : IVec S_ 1 := (fun x v => Host.reduce IntOp.andi x v reducesTo_S6x256x256_S_d0_1_2 h_S_) main_v21 main_c_7
  let main_v23 : IVec S_ 1 := andi main_v18 main_v22
  let main_v24 : FVec F S6x256 .f32 := Host.absf main_arg5
  let main_cst_8 : FVec F S_ .f32 := constant S_ .f32 0x7F800000#32
  let main_v25 : FVec F S6x256 .f32 := broadcastInDim S6x256 ![] bcast_S_S6x256 main_cst_8
  let main_v26 : IVec S6x256 1 := cmpf .olt main_v24 main_v25
  let main_c_9 : IVec S_ 1 := constantI S_ 1 1#1
  let main_v27 : IVec S_ 1 := (fun x v => Host.reduce IntOp.andi x v reducesTo_S6x256_S_d0_1 h_S_) main_v26 main_c_9
  let main_v28 : IVec S_ 1 := andi main_v23 main_v27
  let main_v29 : FVec F S256x1536 .f32 := Host.absf main_arg6
  let main_cst_10 : FVec F S_ .f32 := constant S_ .f32 0x7F800000#32
  let main_v30 : FVec F S256x1536 .f32 := broadcastInDim S256x1536 ![] bcast_S_S256x1536 main_cst_10
  let main_v31 : IVec S256x1536 1 := cmpf .olt main_v29 main_v30
  let main_c_11 : IVec S_ 1 := constantI S_ 1 1#1
  let main_v32 : IVec S_ 1 := (fun x v => Host.reduce IntOp.andi x v reducesTo_S256x1536_S_d0_1 h_S_) main_v31 main_c_11
  let main_v33 : IVec S_ 1 := andi main_v28 main_v32
  fn_part2 (F := F) main_arg7 main_v33

def fn {F : FTy → Type} [FloatOps F] (main_arg0 : FVec F S3x32x512x512 .f32) (main_arg1 : FVec F S32x512x256 .f32) (main_arg2 : FVec F S32x512x1 .f32) (main_arg3 : FVec F S32x512x1 .f32) (main_arg4 : FVec F S6x256x256 .f32) (main_arg5 : FVec F S6x256 .f32) (main_arg6 : FVec F S256x1536 .f32) (main_arg7 : FVec F S256 .f32) : IVec S_ 1 :=
  let main_v0 : FVec F S3x32x512x512 .f32 := Host.absf main_arg0
  let main_cst : FVec F S_ .f32 := constant S_ .f32 0x7F800000#32
  let main_v1 : FVec F S3x32x512x512 .f32 := broadcastInDim S3x32x512x512 ![] bcast_S_S3x32x512x512 main_cst
  let main_v2 : IVec S3x32x512x512 1 := cmpf .olt main_v0 main_v1
  let main_c : IVec S_ 1 := constantI S_ 1 1#1
  let main_v3 : IVec S_ 1 := (fun x v => Host.reduce IntOp.andi x v reducesTo_S3x32x512x512_S_d0_1_2_3 h_S_) main_v2 main_c
  let main_v4 : FVec F S32x512x256 .f32 := Host.absf main_arg1
  let main_cst_0 : FVec F S_ .f32 := constant S_ .f32 0x7F800000#32
  let main_v5 : FVec F S32x512x256 .f32 := broadcastInDim S32x512x256 ![] bcast_S_S32x512x256 main_cst_0
  let main_v6 : IVec S32x512x256 1 := cmpf .olt main_v4 main_v5
  let main_c_1 : IVec S_ 1 := constantI S_ 1 1#1
  let main_v7 : IVec S_ 1 := (fun x v => Host.reduce IntOp.andi x v reducesTo_S32x512x256_S_d0_1_2 h_S_) main_v6 main_c_1
  let main_v8 : IVec S_ 1 := andi main_v3 main_v7
  let main_v9 : FVec F S32x512x1 .f32 := Host.absf main_arg2
  let main_cst_2 : FVec F S_ .f32 := constant S_ .f32 0x7F800000#32
  let main_v10 : FVec F S32x512x1 .f32 := broadcastInDim S32x512x1 ![] bcast_S_S32x512x1 main_cst_2
  let main_v11 : IVec S32x512x1 1 := cmpf .olt main_v9 main_v10
  let main_c_3 : IVec S_ 1 := constantI S_ 1 1#1
  let main_v12 : IVec S_ 1 := (fun x v => Host.reduce IntOp.andi x v reducesTo_S32x512x1_S_d0_1_2 h_S_) main_v11 main_c_3
  let main_v13 : IVec S_ 1 := andi main_v8 main_v12
  let main_v14 : FVec F S32x512x1 .f32 := Host.absf main_arg3
  let main_cst_4 : FVec F S_ .f32 := constant S_ .f32 0x7F800000#32
  let main_v15 : FVec F S32x512x1 .f32 := broadcastInDim S32x512x1 ![] bcast_S_S32x512x1 main_cst_4
  let main_v16 : IVec S32x512x1 1 := cmpf .olt main_v14 main_v15
  fn_part1 (F := F) main_arg4 main_arg5 main_arg6 main_arg7 main_v13 main_v16
-- ==== Kernel.lean ====
abbrev S3x32x512x512 : Shape := ⟨4, ![3, 32, 512, 512]⟩
abbrev S32x512x256 : Shape := ⟨3, ![32, 512, 256]⟩
abbrev S32x512x1 : Shape := ⟨3, ![32, 512, 1]⟩
abbrev S6x256x256 : Shape := ⟨3, ![6, 256, 256]⟩
abbrev S6x256 : Shape := ⟨2, ![6, 256]⟩
abbrev S256x1536 : Shape := ⟨2, ![256, 1536]⟩
abbrev S256 : Shape := ⟨1, ![256]⟩
abbrev S1x256 : Shape := ⟨2, ![1, 256]⟩
abbrev S3x1x512x512 : Shape := ⟨4, ![3, 1, 512, 512]⟩
abbrev S1x512x256 : Shape := ⟨3, ![1, 512, 256]⟩
abbrev S512x1536 : Shape := ⟨2, ![512, 1536]⟩
abbrev S512x256 : Shape := ⟨2, ![512, 256]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 10
  | .vmem => 11
  | .smem => 0
  | _ => 0

abbrev bufTy : (tb : Table) → Fin (tcTables nBuf tb) → BufTy
  | .hbm, ⟨0, _⟩ => ⟨S3x32x512x512, .f32⟩
  | .hbm, ⟨1, _⟩ => ⟨S32x512x256, .f32⟩
  | .hbm, ⟨2, _⟩ => ⟨S32x512x1, .f32⟩
  | .hbm, ⟨3, _⟩ => ⟨S32x512x1, .f32⟩
  | .hbm, ⟨4, _⟩ => ⟨S6x256x256, .f32⟩
  | .hbm, ⟨5, _⟩ => ⟨S6x256, .f32⟩
  | .hbm, ⟨6, _⟩ => ⟨S256x1536, .f32⟩
  | .hbm, ⟨7, _⟩ => ⟨S256, .f32⟩
  | .hbm, ⟨8, _⟩ => ⟨S1x256, .f32⟩
  | .hbm, ⟨9, _⟩ => ⟨S32x512x256, .f32⟩
  | .local _ .vmem, ⟨0, _⟩ => ⟨S3x1x512x512, .f32⟩
  | .local _ .vmem, ⟨1, _⟩ => ⟨S3x1x512x512, .f32⟩
  | .local _ .vmem, ⟨2, _⟩ => ⟨S1x512x256, .f32⟩
  | .local _ .vmem, ⟨3, _⟩ => ⟨S1x512x256, .f32⟩
  | .local _ .vmem, ⟨4, _⟩ => ⟨S6x256x256, .f32⟩
  | .local _ .vmem, ⟨5, _⟩ => ⟨S6x256, .f32⟩
  | .local _ .vmem, ⟨6, _⟩ => ⟨S256x1536, .f32⟩
  | .local _ .vmem, ⟨7, _⟩ => ⟨S1x256, .f32⟩
  | .local _ .vmem, ⟨8, _⟩ => ⟨S1x512x256, .f32⟩
  | .local _ .vmem, ⟨9, _⟩ => ⟨S1x512x256, .f32⟩
  | .local _ .vmem, ⟨10, _⟩ => ⟨S512x1536, .f32⟩
  | _, _ => ⟨S3x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S3x1x512x512_S1x1x512x512_0_0_0_0 : ∀ a, (![0, 0, 0, 0] : Fin 4 → Nat) a + S1x1x512x512.size a ≤ S3x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  bitsLt_bf16_f32 : FTy.bits .bf16 < FTy.bits .f32
  inb_S6x256x256_S1x256x256_0_0_0 : ∀ a, (![0, 0, 0] : Fin 3 → Nat) a + S1x256x256.size a ≤ S6x256x256.size a
  h_S1x256x256 : 0 < S1x256x256.numel
  shapeCasts_S1x256x256_S256x256 : S1x256x256.ShapeCasts S256x256
  inb_S6x256_S1x256_0_0 : ∀ a, (![0, 0] : Fin 2 → Nat) a + S1x256.size a ≤ S6x256.size a
  h_S1x256 : 0 < S1x256.numel
  shapeCasts_S1x256_S256 : S1x256.ShapeCasts S256
  broadcasts_S1x256_S512x256 : S1x256.Broadcasts S512x256
  broadcasts_S512x1_S512x256 : S512x1.Broadcasts S512x256
  inb_S512x1536_S512x256_0_0 : ∀ a, (![0, 0] : Fin 2 → Nat) a + S512x256.size a ≤ S512x1536.size a
  h_S512x256 : 0 < S512x256.numel
  shapeCasts_S512x256_S512x256 : S512x256.ShapeCasts S512x256
  inb_S6x256x256_S1x256x256_1_0_0 : ∀ a, (![1, 0, 0] : Fin 3 → Nat) a + S1x256x256.size a ≤ S6x256x256.size a
  inb_S6x256_S1x256_1_0 : ∀ a, (![1, 0] : Fin 2 → Nat) a + S1x256.size a ≤ S6x256.size a
  inb_S512x1536_S512x256_0_256 : ∀ a, (![0, 256] : Fin 2 → Nat) a + S512x256.size a ≤ S512x1536.size a
  inb_S3x1x512x512_S1x1x512x512_1_0_0_0 : ∀ a, (![1, 0, 0, 0] : Fin 4 → Nat) a + S1x1x512x512.size a ≤ S3x1x512x512.size a
  inb_S6x256x256_S1x256x256_2_0_0 : ∀ a, (![2, 0, 0] : Fin 3 → Nat) a + S1x256x256.size a ≤ S6x256x256.size a
  inb_S6x256_S1x256_2_0 : ∀ a, (![2, 0] : Fin 2 → Nat) a + S1x256.size a ≤ S6x256.size a
  inb_S512x1536_S512x256_0_512 : ∀ a, (![0, 512] : Fin 2 → Nat) a + S512x256.size a ≤ S512x1536.size a
  inb_S6x256x256_S1x256x256_3_0_0 : ∀ a, (![3, 0, 0] : Fin 3 → Nat) a + S1x256x256.size a ≤ S6x256x256.size a
  inb_S6x256_S1x256_3_0 : ∀ a, (![3, 0] : Fin 2 → Nat) a + S1x256.size a ≤ S6x256.size a
  inb_S512x1536_S512x256_0_768 : ∀ a, (![0, 768] : Fin 2 → Nat) a + S512x256.size a ≤ S512x1536.size a
  inb_S3x1x512x512_S1x1x512x512_2_0_0_0 : ∀ a, (![2, 0, 0, 0] : Fin 4 → Nat) a + S1x1x512x512.size a ≤ S3x1x512x512.size a
  inb_S6x256x256_S1x256x256_4_0_0 : ∀ a, (![4, 0, 0] : Fin 3 → Nat) a + S1x256x256.size a ≤ S6x256x256.size a
  inb_S6x256_S1x256_4_0 : ∀ a, (![4, 0] : Fin 2 → Nat) a + S1x256.size a ≤ S6x256.size a
  inb_S512x1536_S512x256_0_1024 : ∀ a, (![0, 1024] : Fin 2 → Nat) a + S512x256.size a ≤ S512x1536.size a
  inb_S6x256x256_S1x256x256_5_0_0 : ∀ a, (![5, 0, 0] : Fin 3 → Nat) a + S1x256x256.size a ≤ S6x256x256.size a
  inb_S6x256_S1x256_5_0 : ∀ a, (![5, 0] : Fin 2 → Nat) a + S1x256.size a ≤ S6x256.size a
  inb_S512x1536_S512x256_0_1280 : ∀ a, (![0, 1280] : Fin 2 → Nat) a + S512x256.size a ≤ S512x1536.size a
  inb_S512x1536_S512x1536_0_0 : ∀ a, (![0, 0] : Fin 2 → Nat) a + S512x1536.size a ≤ S512x1536.size a
  h_S512x1536 : 0 < S512x1536.numel
  inb_S256x1536_S256x1536_0_0 : ∀ a, (![0, 0] : Fin 2 → Nat) a + S256x1536.size a ≤ S256x1536.size a
  h_S256x1536 : 0 < S256x1536.numel
  inb_S1x256_S1x256_0_0 : ∀ a, (![0, 0] : Fin 2 → Nat) a + S1x256.size a ≤ S1x256.size a
  shapeCasts_S1x256_S1x256 : S1x256.ShapeCasts S1x256
  shapeCasts_S512x256_S1x512x256 : S512x256.ShapeCasts S1x512x256
  dot_S512x512_S512x256_S512x256_1_0_0_1_n_n_wf : DotDims.WF S512x512 S512x256 S512x256 [1] [0] [0] [1] [] []
  dot_S512x256_S256x256_S512x256_1_1_0_0_n_n_wf : DotDims.WF S512x256 S256x256 S512x256 [1] [1] [0] [0] [] []
  dot_S512x1536_S256x1536_S512x256_1_1_0_0_n_n_wf : DotDims.WF S512x1536 S256x1536 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1x512x512.size a ≤ S3x32x512x512.size a
  hwx0_0 : ∀ i : grid0.Coords, EltTy.bits .f32 = 32 ∨ (Rect.block (s := S3x32x512x512) S3x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S32x512x256.size a
  hwx0_1 : ∀ i : grid0.Coords, EltTy.bits .f32 = 32 ∨ (Rect.block (s := S32x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x256x256.size a ≤ S6x256x256.size a
  hwx0_2 : ∀ i : grid0.Coords, EltTy.bits .f32 = 32 ∨ (Rect.block (s := S6x256x256) S6x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x256.size a ≤ S6x256.size a
  hwx0_3 : ∀ i : grid0.Coords, EltTy.bits .f32 = 32 ∨ (Rect.block (s := S6x256) S6x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1536.size a ≤ S256x1536.size a
  hwx0_4 : ∀ i : grid0.Coords, EltTy.bits .f32 = 32 ∨ (Rect.block (s := S256x1536) S256x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x256.size a ≤ S32x512x256.size a
  hwx0_6 : ∀ i : grid0.Coords, EltTy.bits .f32 = 32 ∨ (Rect.block (s := S32x512x256) S1x512x256.size (cc0_transform_6 i) (hinb0_6 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S512x1536_S256x1536_S512x256_1_1_0_0_n_n : DotDims S512x1536 S256x1536 S512x256 where
  lhsContracting := [1]
  rhsContracting := [1]
  lhsNonContracting := [0]
  rhsNonContracting := [0]
  lhsBatch := []
  rhsBatch := []
  wf := dot_S512x1536_S256x1536_S512x256_1_1_0_0_n_n_wf

abbrev win0_0 : Pipeline.Window sig grid0 :=
  Pipeline.Window.ofSpec (Memref.whole main_arg0) S3x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S6x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S6x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S3x32x512x512 : Shape := ⟨4, ![3, 32, 512, 512]⟩
abbrev S32x512x256 : Shape := ⟨3, ![32, 512, 256]⟩
abbrev S32x512x1 : Shape := ⟨3, ![32, 512, 1]⟩
abbrev S6x256x256 : Shape := ⟨3, ![6, 256, 256]⟩
abbrev S6x256 : Shape := ⟨2, ![6, 256]⟩
abbrev S256x1536 : Shape := ⟨2, ![256, 1536]⟩
abbrev S256 : Shape := ⟨1, ![256]⟩
abbrev S1x32x512x512 : Shape := ⟨4, ![1, 32, 512, 512]⟩
abbrev S32x512x512 : Shape := ⟨3, ![32, 512, 512]⟩
abbrev S_ : Shape := ⟨0, ![]⟩
abbrev S32x512 : Shape := ⟨2, ![32, 512]⟩
abbrev S1x256x256 : Shape := ⟨3, ![1, 256, 256]⟩
abbrev S256x256 : Shape := ⟨2, ![256, 256]⟩
abbrev S1x256 : Shape := ⟨2, ![1, 256]⟩
abbrev S1x1x256 : Shape := ⟨3, ![1, 1, 256]⟩
abbrev S32x512x1536 : Shape := ⟨3, ![32, 512, 1536]⟩

abbrev nBuf : Space → Nat
  | .hbm => 149
  | .vmem => 0
  | .smem => 0
  | _ => 0

abbrev hbmTy0_0 (i : Nat) : BufTy := match i % 128 with
  | 0 => ⟨S3x32x512x512, .f32⟩
  | 1 => ⟨S32x512x256, .f32⟩
  | 2 => ⟨S32x512x1, .f32⟩
  | 3 => ⟨S32x512x1, .f32⟩
  | 4 => ⟨S6x256x256, .f32⟩
  | 5 => ⟨S6x256, .f32⟩
  | 6 => ⟨S256x1536, .f32⟩
  | 7 => ⟨S256, .f32⟩
  | 8 => ⟨S1x32x512x512, .f32⟩
  | 9 => ⟨S32x512x512, .f32⟩
  | 10 => ⟨S_, .f32⟩
  | 11 => ⟨S32x512, .f32⟩
  | 12 => ⟨S32x512x1, .f32⟩
  | 13 => ⟨S_, .f32⟩
  | 14 => ⟨S32x512x1, .f32⟩
  | 15 => ⟨S32x512x1, .f32⟩
  | 16 => ⟨S32x512x256, .f32⟩
  | 17 => ⟨S32x512x256, .f32⟩
  | 18 => ⟨S1x256x256, .f32⟩
  | 19 => ⟨S256x256, .f32⟩
  | 20 => ⟨S32x512x256, .f32⟩
  | 21 => ⟨S1x256, .f32⟩
  | 22 => ⟨S256, .f32⟩
  | 23 => ⟨S_, .f32⟩
  | 24 => ⟨S256, .f32⟩
  | 25 => ⟨S256, .f32⟩
  | 26 => ⟨S1x1x256, .f32⟩
  | 27 => ⟨S32x512x256, .f32⟩
  | 28 => ⟨S32x512x256, .f32⟩
  | 29 => ⟨S32x512x256, .f32⟩
  | 30 => ⟨S32x512x256, .f32⟩
  | 31 => ⟨S_, .f32⟩
  | 32 => ⟨S32x512x256, .f32⟩
  | 33 => ⟨S32x512x256, .f32⟩
  | 34 => ⟨S32x512x256, .f32⟩
  | 35 => ⟨S32x512x256, .f32⟩
  | 36 => ⟨S1x256x256, .f32⟩
  | 37 => ⟨S256x256, .f32⟩
  | 38 => ⟨S32x512x256, .f32⟩
  | 39 => ⟨S1x256, .f32⟩
  | 40 => ⟨S256, .f32⟩
  | 41 => ⟨S_, .f32⟩
  | 42 => ⟨S256, .f32⟩
  | 43 => ⟨S256, .f32⟩
  | 44 => ⟨S1x1x256, .f32⟩
  | 45 => ⟨S32x512x256, .f32⟩
  | 46 => ⟨S32x512x256, .f32⟩
  | 47 => ⟨S32x512x256, .f32⟩
  | 48 => ⟨S32x512x256, .f32⟩
  | 49 => ⟨S_, .f32⟩
  | 50 => ⟨S32x512x256, .f32⟩
  | 51 => ⟨S32x512x256, .f32⟩
  | 52 => ⟨S32x512x512, .f32⟩
  | 53 => ⟨S1x32x512x512, .f32⟩
  | 54 => ⟨S32x512x512, .f32⟩
  | 55 => ⟨S_, .f32⟩
  | 56 => ⟨S32x512, .f32⟩
  | 57 => ⟨S32x512x1, .f32⟩
  | 58 => ⟨S_, .f32⟩
  | 59 => ⟨S32x512x1, .f32⟩
  | 60 => ⟨S32x512x1, .f32⟩
  | 61 => ⟨S32x512x256, .f32⟩
  | 62 => ⟨S32x512x256, .f32⟩
  | 63 => ⟨S1x256x256, .f32⟩
  | 64 => ⟨S256x256, .f32⟩
  | 65 => ⟨S32x512x256, .f32⟩
  | 66 => ⟨S1x256, .f32⟩
  | 67 => ⟨S256, .f32⟩
  | 68 => ⟨S_, .f32⟩
  | 69 => ⟨S256, .f32⟩
  | 70 => ⟨S256, .f32⟩
  | 71 => ⟨S1x1x256, .f32⟩
  | 72 => ⟨S32x512x256, .f32⟩
  | 73 => ⟨S32x512x256, .f32⟩
  | 74 => ⟨S32x512x256, .f32⟩
  | 75 => ⟨S32x512x256, .f32⟩
  | 76 => ⟨S_, .f32⟩
  | 77 => ⟨S32x512x256, .f32⟩
  | 78 => ⟨S32x512x256, .f32⟩
  | 79 => ⟨S32x512x256, .f32⟩
  | 80 => ⟨S32x512x256, .f32⟩
  | 81 => ⟨S1x256x256, .f32⟩
  | 82 => ⟨S256x256, .f32⟩
  | 83 => ⟨S32x512x256, .f32⟩
  | 84 => ⟨S1x256, .f32⟩
  | 85 => ⟨S256, .f32⟩
  | 86 => ⟨S_, .f32⟩
  | 87 => ⟨S256, .f32⟩
  | 88 => ⟨S256, .f32⟩
  | 89 => ⟨S1x1x256, .f32⟩
  | 90 => ⟨S32x512x256, .f32⟩
  | 91 => ⟨S32x512x256, .f32⟩
  | 92 => ⟨S32x512x256, .f32⟩
  | 93 => ⟨S32x512x256, .f32⟩
  | 94 => ⟨S_, .f32⟩
  | 95 => ⟨S32x512x256, .f32⟩
  | 96 => ⟨S32x512x256, .f32⟩
  | 97 => ⟨S32x512x512, .f32⟩
  | 98 => ⟨S1x32x512x512, .f32⟩
  | 99 => ⟨S32x512x512, .f32⟩
  | 100 => ⟨S_, .f32⟩
  | 101 => ⟨S32x512, .f32⟩
  | 102 => ⟨S32x512x1, .f32⟩
  | 103 => ⟨S_, .f32⟩
  | 104 => ⟨S32x512x1, .f32⟩
  | 105 => ⟨S32x512x1, .f32⟩
  | 106 => ⟨S32x512x256, .f32⟩
  | 107 => ⟨S32x512x256, .f32⟩
  | 108 => ⟨S1x256x256, .f32⟩
  | 109 => ⟨S256x256, .f32⟩
  | 110 => ⟨S32x512x256, .f32⟩
  | 111 => ⟨S1x256, .f32⟩
  | 112 => ⟨S256, .f32⟩
  | 113 => ⟨S_, .f32⟩
  | 114 => ⟨S256, .f32⟩
  | 115 => ⟨S256, .f32⟩
  | 116 => ⟨S1x1x256, .f32⟩
  | 117 => ⟨S32x512x256, .f32⟩
  | 118 => ⟨S32x512x256, .f32⟩
  | 119 => ⟨S32x512x256, .f32⟩
  | 120 => ⟨S32x512x256, .f32⟩
  | 121 => ⟨S_, .f32⟩
  | 122 => ⟨S32x512x256, .f32⟩
  | 123 => ⟨S32x512x256, .f32⟩
  | 124 => ⟨S32x512x256, .f32⟩
  | 125 => ⟨S32x512x256, .f32⟩
  | 126 => ⟨S1x256x256, .f32⟩
  | 127 => ⟨S256x256, .f32⟩
  | _ => ⟨S3x32x512x512, .f32⟩

abbrev hbmTy0_1 (i : Nat) : BufTy := match i % 128 with
  | 0 => ⟨S32x512x256, .f32⟩
  | 1 => ⟨S1x256, .f32⟩
  | 2 => ⟨S256, .f32⟩
  | 3 => ⟨S_, .f32⟩
  | 4 => ⟨S256, .f32⟩
  | 5 => ⟨S256, .f32⟩
  | 6 => ⟨S1x1x256, .f32⟩
  | 7 => ⟨S32x512x256, .f32⟩
  | 8 => ⟨S32x512x256, .f32⟩
  | 9 => ⟨S32x512x256, .f32⟩
  | 10 => ⟨S32x512x256, .f32⟩
  | 11 => ⟨S_, .f32⟩
  | 12 => ⟨S32x512x256, .f32⟩
  | 13 => ⟨S32x512x256, .f32⟩
  | 14 => ⟨S32x512x512, .f32⟩
  | 15 => ⟨S32x512x1536, .f32⟩
  | 16 => ⟨S32x512x256, .f32⟩
  | 17 => ⟨S1x1x256, .f32⟩
  | 18 => ⟨S32x512x256, .f32⟩
  | 19 => ⟨S32x512x256, .f32⟩
  | 20 => ⟨S32x512x256, .f32⟩
  | _ => ⟨S3x32x512x512, .f32⟩

abbrev hbmTy (i : Nat) : BufTy := match i / 128 with
  | 0 => hbmTy0_0 i
  | 1 => hbmTy0_1 i
  | _ => ⟨S3x32x512x512, .f32⟩

abbrev bufTy : (tb : Table) → Fin (tcTables nBuf tb) → BufTy
  | .hbm, ⟨i, _⟩ => hbmTy i
  | _, _ => ⟨S3x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call2_cst : Ref sig .tc := ⟨.hbm, 76, rfl⟩
abbrev main_call2_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call3_cst : Ref sig .tc := ⟨.hbm, 94, rfl⟩
abbrev main_call3_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_7 : Ref sig .tc := ⟨.hbm, 100, rfl⟩
abbrev main_v76 : Ref sig .tc := ⟨.hbm, 101, rfl⟩
abbrev main_v77 : Ref sig .tc := ⟨.hbm, 102, rfl⟩
abbrev main_cst_8 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_9 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call4_cst : Ref sig .tc := ⟨.hbm, 121, rfl⟩
abbrev main_call4_v0 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_10 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_call5_cst : Ref sig .tc := ⟨.hbm, 139, rfl⟩
abbrev main_call5_v0 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩

abbrev nD : Nat := 1
abbrev τ : Topo := Topo.v7x

variable {F : FTy → Type} [FloatOps F]

class Facts₀ : Prop where
  slices_S3x32x512x512_S1x32x512x512_0_0_0_0 : S3x32x512x512.Slices ![0, 0, 0, 0] S1x32x512x512
  shapeCasts_S1x32x512x512_S32x512x512 : S1x32x512x512.ShapeCasts S32x512x512
  reducesTo_S32x512x512_S32x512_d2 : S32x512x512.ReducesTo [2] S32x512
  h_S_ : 0 < S_.numel
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  slices_S6x256x256_S1x256x256_0_0_0 : S6x256x256.Slices ![0, 0, 0] S1x256x256
  shapeCasts_S1x256x256_S256x256 : S1x256x256.ShapeCasts S256x256
  slices_S6x256_S1x256_0_0 : S6x256.Slices ![0, 0] S1x256
  shapeCasts_S1x256_S256 : S1x256.ShapeCasts S256
  bcast_S_S256 : S_.BroadcastsInDim S256 (![] : Fin 0 → Fin S256.rank)
  bcast_S256_S1x1x256_2 : S256.BroadcastsInDim S1x1x256 (![2] : Fin 1 → Fin S1x1x256.rank)
  bcast_S1x1x256_S32x512x256_0_1_2 : S1x1x256.BroadcastsInDim S32x512x256 (![0, 1, 2] : Fin 3 → Fin S32x512x256.rank)
  bcast_S32x512x1_S32x512x256_0_1_2 : S32x512x1.BroadcastsInDim S32x512x256 (![0, 1, 2] : Fin 3 → Fin S32x512x256.rank)
  bcast_S_S32x512x256 : S_.BroadcastsInDim S32x512x256 (![] : Fin 0 → Fin S32x512x256.rank)
  slices_S6x256x256_S1x256x256_1_0_0 : S6x256x256.Slices ![1, 0, 0] S1x256x256
  slices_S6x256_S1x256_1_0 : S6x256.Slices ![1, 0] S1x256
  concatenates_S32x512x256_S32x512x256_S32x512x512_d2 : Shape.Concatenates [S32x512x256, S32x512x256] S32x512x512 2
  slices_S3x32x512x512_S1x32x512x512_1_0_0_0 : S3x32x512x512.Slices ![1, 0, 0, 0] S1x32x512x512
  slices_S6x256x256_S1x256x256_2_0_0 : S6x256x256.Slices ![2, 0, 0] S1x256x256
  slices_S6x256_S1x256_2_0 : S6x256.Slices ![2, 0] S1x256
  slices_S6x256x256_S1x256x256_3_0_0 : S6x256x256.Slices ![3, 0, 0] S1x256x256
  slices_S6x256_S1x256_3_0 : S6x256.Slices ![3, 0] S1x256
  slices_S3x32x512x512_S1x32x512x512_2_0_0_0 : S3x32x512x512.Slices ![2, 0, 0, 0] S1x32x512x512
  slices_S6x256x256_S1x256x256_4_0_0 : S6x256x256.Slices ![4, 0, 0] S1x256x256
  slices_S6x256_S1x256_4_0 : S6x256.Slices ![4, 0] S1x256
  slices_S6x256x256_S1x256x256_5_0_0 : S6x256x256.Slices ![5, 0, 0] S1x256x256
  slices_S6x256_S1x256_5_0 : S6x256.Slices ![5, 0] S1x256
  concatenates_S32x512x512_S32x512x512_S32x512x512_S32x512x1536_d2 : Shape.Concatenates [S32x512x512, S32x512x512, S32x512x512] S32x512x1536 2
  dot_S32x512x512_S32x512x256_S32x512x256_2_1_1_2_0_0_wf : DotDims.WF S32x512x512 S32x512x256 S32x512x256 [2] [1] [1] [2] [0] [0]
  dot_S32x512x256_S256x256_S32x512x256_2_1_01_0_n_n_wf : DotDims.WF S32x512x256 S256x256 S32x512x256 [2] [1] [0, 1] [0] [] []
  dot_S32x512x1536_S256x1536_S32x512x256_2_1_01_0_n_n_wf : DotDims.WF S32x512x1536 S256x1536 S32x512x256 [2] [1] [0, 1] [0] [] []

variable [Facts₀]

def dot_S32x512x512_S32x512x256_S32x512x256_2_1_1_2_0_0 : DotDims S32x512x512 S32x512x256 S32x512x256 where
  lhsContracting := [2]
  rhsContracting := [1]
  lhsNonContracting := [1]
  rhsNonContracting := [2]
  lhsBatch := [0]
  rhsBatch := [0]
  wf := dot_S32x512x512_S32x512x256_S32x512x256_2_1_1_2_0_0_wf
def dot_S32x512x256_S256x256_S32x512x256_2_1_01_0_n_n : DotDims S32x512x256 S256x256 S32x512x256 where
  lhsContracting := [2]
  rhsContracting := [1]
  lhsNonContracting := [0, 1]
  rhsNonContracting := [0]
  lhsBatch := []
  rhsBatch := []
  wf := dot_S32x512x256_S256x256_S32x512x256_2_1_01_0_n_n_wf
def dot_S32x512x1536_S256x1536_S32x512x256_2_1_01_0_n_n : DotDims S32x512x1536 S256x1536 S32x512x256 where
  lhsContracting := [2]
  rhsContracting := [1]
  lhsNonContracting := [0, 1]
  rhsNonContracting := [0]
  lhsBatch := []
  rhsBatch := []
  wf := dot_S32x512x1536_S256x1536_S32x512x256_2_1_01_0_n_n_wf

class Facts : Prop extends Facts₀ where

variable [Facts]
-- ==== Proof.Spec.lean ====
/-
  The mathematics of the multi-head graph-convolution layer, on the extended reals.

  For one batch element: S = 512 nodes, D = 256 features, three adjacency matrices A_h (one per head), and for each
  head two layers. A layer maps node features X to

      relu( ((A·X + X) · Wᵀ + 2·bias) / (rowsum(A) + 1) ),

  the second layer of a head reading the first layer's result. The six [S, D] results (head-major, then layer) are
  laid side by side as an [S, 6·D] array F, and the block's result is X + (F · W_outᵀ + b_out).
  Everything is written entry by entry over explicit coordinates, with the three float words that occur (0, 1, 2) kept
  as the words they are.
-/
import Idealize.ShloMosaic.PureOps.Ideal
import Idealize.ShloMosaic.Lib.ValueIdx

noncomputable section

namespace Gcn

open Idealize.ShloMosaic Idealize.ShloMosaic.ValueIdx

/-- The words 0.0, 1.0 and 2.0 as extended reals. -/
abbrev zeroW : EReal := Ideal.ofBits .f32 0x00000000#32
abbrev oneW : EReal := Ideal.ofBits .f32 0x3F800000#32
abbrev twoW : EReal := Ideal.ofBits .f32 0x40000000#32

/-- The normalizer of node s: the s-th row sum of the adjacency matrix, plus one. -/
def denomAt (A : Fin 512 → Fin 512 → EReal) (s : Fin 512) : EReal := (∑ t : Fin 512, A s t) + oneW

/-- One layer at node s and output feature e: aggregate the neighbours' features and the node's own,
    apply the linear map (rows of W are output features), add the bias twice, normalize, clamp below at zero. -/
def layerAt (A : Fin 512 → Fin 512 → EReal) (X : Fin 512 → Fin 256 → EReal) (W : Fin 256 → Fin 256 → EReal)
    (bias : Fin 256 → EReal) (s : Fin 512) (e : Fin 256) : EReal :=
  max (Ideal.div ((∑ d : Fin 256, ((∑ t : Fin 512, A s t * X t d) + X s d) * W e d) + twoW * bias e) (denomAt A s)) zeroW

/-- Six [S, D] arrays side by side: column f of the [S, 6·D] array is column f mod 256 of array number f / 256. -/
def catAt (o0 o1 o2 o3 o4 o5 : Fin 512 → Fin 256 → EReal) (s : Fin 512) (f : Fin 1536) : EReal :=
  if h0 : f.val < 256 then o0 s ⟨f.val, h0⟩
  else if h1 : f.val < 512 then o1 s ⟨f.val - 256, by omega⟩
  else if h2 : f.val < 768 then o2 s ⟨f.val - 512, by omega⟩
  else if h3 : f.val < 1024 then o3 s ⟨f.val - 768, by omega⟩
  else if h4 : f.val < 1280 then o4 s ⟨f.val - 1024, by have := f.isLt; omega⟩
  else o5 s ⟨f.val - 1280, by have := f.isLt; omega⟩

section cat
variable (o0 o1 o2 o3 o4 o5 : Fin 512 → Fin 256 → EReal) (s : Fin 512) (f : Fin 1536)

/-- Column f of the joined array, by the block of 256 columns it lies in. -/
theorem catAt_0 (h : f.val < 256) : catAt o0 o1 o2 o3 o4 o5 s f = o0 s ⟨f.val, h⟩ := by
  unfold catAt; rw [dif_pos h]
theorem catAt_1 (hlo : 256 ≤ f.val) (h : f.val < 512) : catAt o0 o1 o2 o3 o4 o5 s f = o1 s ⟨f.val - 256, by omega⟩ := by
  unfold catAt; rw [dif_neg (by omega), dif_pos h]
theorem catAt_2 (hlo : 512 ≤ f.val) (h : f.val < 768) : catAt o0 o1 o2 o3 o4 o5 s f = o2 s ⟨f.val - 512, by omega⟩ := by
  unfold catAt; rw [dif_neg (by omega), dif_neg (by omega), dif_pos h]
theorem catAt_3 (hlo : 768 ≤ f.val) (h : f.val < 1024) : catAt o0 o1 o2 o3 o4 o5 s f = o3 s ⟨f.val - 768, by omega⟩ := by
  unfold catAt; rw [dif_neg (by omega), dif_neg (by omega), dif_neg (by omega), dif_pos h]
theorem catAt_4 (hlo : 1024 ≤ f.val) (h : f.val < 1280) : catAt o0 o1 o2 o3 o4 o5 s f = o4 s ⟨f.val - 1024, by omega⟩ := by
  unfold catAt; rw [dif_neg (by omega), dif_neg (by omega), dif_neg (by omega), dif_neg (by omega), dif_pos h]
theorem catAt_5 (hlo : 1280 ≤ f.val) : catAt o0 o1 o2 o3 o4 o5 s f = o5 s ⟨f.val - 1280, by have := f.isLt; omega⟩ := by
  unfold catAt; rw [dif_neg (by omega), dif_neg (by omega), dif_neg (by omega), dif_neg (by omega), dif_neg (by omega)]

end cat

/-- The block's result at node s and feature e: the input plus the output projection of the joined features. -/
def resultAt (X : Fin 512 → Fin 256 → EReal) (Fj : Fin 512 → Fin 1536 → EReal) (Wout : Fin 256 → Fin 1536 → EReal)
    (bout : Fin 256 → EReal) (s : Fin 512) (e : Fin 256) : EReal :=
  X s e + ((∑ f : Fin 1536, Fj s f * Wout e f) + bout e)

/-! ## The whole arrays -/

section arrays

variable (x0 : (⟨4, ![3, 32, 512, 512]⟩ : Shape).Idx → EReal) (x1 : (⟨3, ![32, 512, 256]⟩ : Shape).Idx → EReal)
  (x4 : (⟨3, ![6, 256, 256]⟩ : Shape).Idx → EReal) (x5 : (⟨2, ![6, 256]⟩ : Shape).Idx → EReal)
  (x6 : (⟨2, ![256, 1536]⟩ : Shape).Idx → EReal) (x7 : (⟨1, ![256]⟩ : Shape).Idx → EReal)

/-- Head h's adjacency matrix of batch element b. -/
def adj (h : Fin 3) (b : Fin 32) : Fin 512 → Fin 512 → EReal := fun s t => x0 (ix4 h b s t)
/-- Batch element b's input features. -/
def feat (b : Fin 32) : Fin 512 → Fin 256 → EReal := fun s d => x1 (ix3 b s d)
/-- The k-th linear map and bias. -/
def lin (k : Fin 6) : Fin 256 → Fin 256 → EReal := fun e d => x4 (ix3 k e d)
def bias (k : Fin 6) : Fin 256 → EReal := fun e => x5 (ix2 k e)

/-- Head h's first layer on batch element b. -/
def first (h : Fin 3) (k : Fin 6) (b : Fin 32) : Fin 512 → Fin 256 → EReal :=
  layerAt (adj x0 h b) (feat x1 b) (lin x4 k) (bias x5 k)
/-- Head h's second layer, reading the first (which uses map k) through map k'. -/
def second (h : Fin 3) (k k' : Fin 6) (b : Fin 32) : Fin 512 → Fin 256 → EReal :=
  layerAt (adj x0 h b) (first x0 x1 x4 x5 h k b) (lin x4 k') (bias x5 k')

/-- The joined features of batch element b. -/
def joined (b : Fin 32) : Fin 512 → Fin 1536 → EReal :=
  catAt (first x0 x1 x4 x5 0 0 b) (second x0 x1 x4 x5 0 0 1 b) (first x0 x1 x4 x5 1 2 b) (second x0 x1 x4 x5 1 2 3 b)
    (first x0 x1 x4 x5 2 4 b) (second x0 x1 x4 x5 2 4 5 b)

/-- The whole result array, entry by entry. -/
def G : (⟨3, ![32, 512, 256]⟩ : Shape).Idx → EReal := fun i =>
  resultAt (feat x1 (i 0)) (joined x0 x1 x4 x5 (i 0)) (fun e f => x6 (ix2 e f)) (fun e => x7 (ix1 e)) (i 1) (i 2)

end arrays

end Gcn

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibImageCast.lean ====
/-
  A [1, 1, a, b] block viewed as an [a, b] image reads, at (r, q), the block at (0, 0, r, q): both indices sit
  at row-major position r · b + q.  Stated for any extents a and b.
-/
import Idealize.ShloMosaic.Lib.Pipeline.Value
import Idealize.ShloMosaic.Lib.ValueIdx

namespace ImageCast

open Idealize.ShloMosaic Idealize.ShloMosaic.ValueIdx

variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (r : Fin a) (q : Fin b) :
    shapeCast ⟨2, ![a, b]⟩ x h (ix2 r q) = x (ix4 (0 : Fin 1) (0 : Fin 1) r q) :=
  shapeCast_apply x h _ _ (by
    rw [Shape.rowMajor_val_four, Shape.rowMajor_val_two]
    show ((0 * 1 + 0) * a + r.val) * b + q.val = r.val * b + q.val
    simp only [Nat.zero_mul, Nat.zero_add])

end ImageCast
-- ==== Proof.KerOps.lean ====
/-
  The kernel's vector operations read entry by entry, on the extended reals.

  The body works on one batch element: an adjacency matrix A [512, 512], features Y [512, 256], a linear map
  W [1, 256, 256] and a bias row [1, 256] as they are loaded. One layer is

      relu( ((A·Y + Y)·Wᵀ + 2·bias) / den ),     den = rowsum(A) + 1  as a [512, 1] column,

  spelled with two matrix products into zero accumulators (a change of float format is the identity here), the bias
  row doubled and spread over the rows, and the column spread over the lanes. Each of these is read at (s, e), and the
  whole layer is then the specification's `Gcn.layerAt` of the operands' entries. The last step of the body,
  X + (F·W_outᵀ + b_out) over the joined [512, 1536] features F, is read the same way.
-/
import proofs.«146254_j90305982366169_1_alg».proof.KernelIdeal
import proofs.«146254_j90305982366169_1_alg».proof.Proof.Gen.KernelIdeal
import proofs.«146254_j90305982366169_1_alg».proof.Proof.Spec
import proofs.«146254_j90305982366169_1_alg».proof.Proof.LibKeepdims
import proofs.«146254_j90305982366169_1_alg».proof.Proof.LibImageCast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Ker

open Cert.KernelIdeal Cert.KernelIdeal.Facts₀ Idealize.ShloMosaic Idealize.ShloMosaic.ValueIdx

/-! ## The three matrix products -/

private theorem mmA_apply_l0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
private theorem mmA_apply_l1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
private theorem mmA_apply_r0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
private theorem mmA_apply_r1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- A·Y at (s, d): the sum over the neighbours k of A(s, k)·Y(k, d). -/
theorem mmA_apply {φ₁ φ₂ : FTy} (L : FVec Ideal S512x512 φ₁) (R : FVec Ideal S512x256 φ₂) (s : Fin 512) (d : Fin 256) :
    matmul dot_S512x512_S512x256_S512x256_1_0_0_1_n_n none L R (constant S512x256 .f32 0x00000000#32) (ix2 s d)
      = ∑ k : Fin 512, L (ix2 s k) * R (ix2 k d) := by
  refine (Ideal.matmul_constant_zero_apply dot_S512x512_S512x256_S512x256_1_0_0_1_n_n none L R (ix2 s d)).trans ?_
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 s d) ((contrEquiv1 dot_S512x512_S512x256_S512x256_1_0_0_1_n_n 512 rfl rfl).symm k) = ix2 s k := funext fun a => Fin.ext (by
    match a with
    | ⟨0, _⟩ => exact mmA_apply_l0 _ _
    | ⟨1, _⟩ => exact (mmA_apply_l1 _ _).trans hk)
  have er : dot_S512x512_S512x256_S512x256_1_0_0_1_n_n.rhsIdx (ix2 s d) ((contrEquiv1 dot_S512x512_S512x256_S512x256_1_0_0_1_n_n 512 rfl rfl).symm k) = ix2 k d := funext fun a => Fin.ext (by
    match a with
    | ⟨0, _⟩ => exact (mmA_apply_r0 _ _).trans hk
    | ⟨1, _⟩ => exact mmA_apply_r1 _ _)
  rw [el, er]

private theorem mmW_apply_l0 (i : S512x256.Idx) (q : dot_S512x256_S256x256_S512x256_1_1_0_0_n_n.contr.Idx) :
    (dot_S512x256_S256x256_S512x256_1_1_0_0_n_n.lhsIdx i q 0).val = (i 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
private theorem mmW_apply_l1 (i : S512x256.Idx) (q : dot_S512x256_S256x256_S512x256_1_1_0_0_n_n.contr.Idx) :
    (dot_S512x256_S256x256_S512x256_1_1_0_0_n_n.lhsIdx i q 1).val = (q ⟨0, by decide⟩).val :=
  dot_S512x256_S256x256_S512x256_1_1_0_0_n_n.lhsIdx_val_of_single rfl i q
private theorem mmW_apply_r0 (i : S512x256.Idx) (q : dot_S512x256_S256x256_S512x256_1_1_0_0_n_n.contr.Idx) :
    (dot_S512x256_S256x256_S512x256_1_1_0_0_n_n.rhsIdx i q 0).val = (i 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl
private theorem mmW_apply_r1 (i : S512x256.Idx) (q : dot_S512x256_S256x256_S512x256_1_1_0_0_n_n.contr.Idx) :
    (dot_S512x256_S256x256_S512x256_1_1_0_0_n_n.rhsIdx i q 1).val = (q ⟨0, by decide⟩).val :=
  dot_S512x256_S256x256_S512x256_1_1_0_0_n_n.rhsIdx_val_of_single rfl i q

/-- Z·Wᵀ at (s, e): the sum over the input features k of Z(s, k)·W(e, k). -/
theorem mmW_apply {φ₁ φ₂ : FTy} (L : FVec Ideal S512x256 φ₁) (R : FVec Ideal S256x256 φ₂) (s : Fin 512) (e : Fin 256) :
    matmul dot_S512x256_S256x256_S512x256_1_1_0_0_n_n none L R (constant S512x256 .f32 0x00000000#32) (ix2 s e)
      = ∑ k : Fin 256, L (ix2 s k) * R (ix2 e k) := by
  refine (Ideal.matmul_constant_zero_apply dot_S512x256_S256x256_S512x256_1_1_0_0_n_n none L R (ix2 s e)).trans ?_
  rw [← Equiv.sum_comp (contrEquiv1 dot_S512x256_S256x256_S512x256_1_1_0_0_n_n 256 rfl rfl).symm]
  refine Finset.sum_congr rfl fun k _ => ?_
  have hk := contrEquiv1_symm_val dot_S512x256_S256x256_S512x256_1_1_0_0_n_n 256 rfl rfl k
  have el : dot_S512x256_S256x256_S512x256_1_1_0_0_n_n.lhsIdx (ix2 s e) ((contrEquiv1 dot_S512x256_S256x256_S512x256_1_1_0_0_n_n 256 rfl rfl).symm k) = ix2 s k := funext fun a => Fin.ext (by
    match a with
    | ⟨0, _⟩ => exact mmW_apply_l0 _ _
    | ⟨1, _⟩ => exact (mmW_apply_l1 _ _).trans hk)
  have er : dot_S512x256_S256x256_S512x256_1_1_0_0_n_n.rhsIdx (ix2 s e) ((contrEquiv1 dot_S512x256_S256x256_S512x256_1_1_0_0_n_n 256 rfl rfl).symm k) = ix2 e k := funext fun a => Fin.ext (by
    match a with
    | ⟨0, _⟩ => exact mmW_apply_r0 _ _
    | ⟨1, _⟩ => exact (mmW_apply_r1 _ _).trans hk)
  rw [el, er]

private theorem mmO_apply_l0 (i : S512x256.Idx) (q : dot_S512x1536_S256x1536_S512x256_1_1_0_0_n_n.contr.Idx) :
    (dot_S512x1536_S256x1536_S512x256_1_1_0_0_n_n.lhsIdx i q 0).val = (i 0).val := by
  unfold DotDims.lhsIdx
  rw [dif_neg (show ¬(0 : Fin S512x1536.rank) ∈ dot_S512x1536_S256x1536_S512x256_1_1_0_0_n_n.lhsBatch by decide), dif_pos (show (0 : Fin S512x1536.rank) ∈ dot_S512x1536_S256x1536_S512x256_1_1_0_0_n_n.lhsNonContracting by decide)]
  rfl
private theorem mmO_apply_l1 (i : S512x256.Idx) (q : dot_S512x1536_S256x1536_S512x256_1_1_0_0_n_n.contr.Idx) :
    (dot_S512x1536_S256x1536_S512x256_1_1_0_0_n_n.lhsIdx i q 1).val = (q ⟨0, by decide⟩).val :=
  dot_S512x1536_S256x1536_S512x256_1_1_0_0_n_n.lhsIdx_val_of_single rfl i q
private theorem mmO_apply_r0 (i : S512x256.Idx) (q : dot_S512x1536_S256x1536_S512x256_1_1_0_0_n_n.contr.Idx) :
    (dot_S512x1536_S256x1536_S512x256_1_1_0_0_n_n.rhsIdx i q 0).val = (i 1).val := by
  unfold DotDims.rhsIdx
  rw [dif_neg (show ¬(0 : Fin S256x1536.rank) ∈ dot_S512x1536_S256x1536_S512x256_1_1_0_0_n_n.rhsBatch by decide), dif_pos (show (0 : Fin S256x1536.rank) ∈ dot_S512x1536_S256x1536_S512x256_1_1_0_0_n_n.rhsNonContracting by decide)]
  rfl
private theorem mmO_apply_r1 (i : S512x256.Idx) (q : dot_S512x1536_S256x1536_S512x256_1_1_0_0_n_n.contr.Idx) :
    (dot_S512x1536_S256x1536_S512x256_1_1_0_0_n_n.rhsIdx i q 1).val = (q ⟨0, by decide⟩).val :=
  dot_S512x1536_S256x1536_S512x256_1_1_0_0_n_n.rhsIdx_val_of_single rfl i q

/-- F·W_outᵀ at (s, e): the sum over the 1536 joined features k of F(s, k)·W_out(e, k). -/
theorem mmO_apply {φ₁ φ₂ : FTy} (L : FVec Ideal S512x1536 φ₁) (R : FVec Ideal S256x1536 φ₂) (s : Fin 512) (e : Fin 256) :
    matmul dot_S512x1536_S256x1536_S512x256_1_1_0_0_n_n none L R (constant S512x256 .f32 0x00000000#32) (ix2 s e)
      = ∑ k : Fin 1536, L (ix2 s k) * R (ix2 e k) := by
  refine (Ideal.matmul_constant_zero_apply dot_S512x1536_S256x1536_S512x256_1_1_0_0_n_n none L R (ix2 s e)).trans ?_
  rw [← Equiv.sum_comp (contrEquiv1 dot_S512x1536_S256x1536_S512x256_1_1_0_0_n_n 1536 rfl rfl).symm]
  refine Finset.sum_congr rfl fun k _ => ?_
  have hk := contrEquiv1_symm_val dot_S512x1536_S256x1536_S512x256_1_1_0_0_n_n 1536 rfl rfl k
  have el : dot_S512x1536_S256x1536_S512x256_1_1_0_0_n_n.lhsIdx (ix2 s e) ((contrEquiv1 dot_S512x1536_S256x1536_S512x256_1_1_0_0_n_n 1536 rfl rfl).symm k) = ix2 s k := funext fun a => Fin.ext (by
    match a with
    | ⟨0, _⟩ => exact mmO_apply_l0 _ _
    | ⟨1, _⟩ => exact (mmO_apply_l1 _ _).trans hk)
  have er : dot_S512x1536_S256x1536_S512x256_1_1_0_0_n_n.rhsIdx (ix2 s e) ((contrEquiv1 dot_S512x1536_S256x1536_S512x256_1_1_0_0_n_n 1536 rfl rfl).symm k) = ix2 e k := funext fun a => Fin.ext (by
    match a with
    | ⟨0, _⟩ => exact mmO_apply_r0 _ _
    | ⟨1, _⟩ => exact (mmO_apply_r1 _ _).trans hk)
  rw [el, er]

/-! ## Rows spread over [512, 256] -/

/-- A [1, 256] row spread over the 512 rows reads, at (s, e), the row at (0, e). -/
theorem rowSpread_apply {α : Type} (v : S1x256.Idx → α) (s : Fin 512) (e : Fin 256) :
    broadcastTo S512x256 v broadcasts_S1x256_S512x256 (ix2 s e) = v (ix2 (0 : Fin 1) e) := by
  refine broadcastTo_apply v broadcasts_S1x256_S512x256 (ix2 s e) (ix2 (0 : Fin 1) e) fun ax => ?_
  match ax with
  | ⟨0, _⟩ => rfl
  | ⟨1, _⟩ => rfl

/-- A 256-vector as a [1, 256] row reads, at (0, e), the vector at e. -/
theorem vecRow_apply {α : Type} (v : S256.Idx → α) (u : Fin 1) (e : Fin 256) :
    shapeCast S1x256 v shapeCasts_S256_S1x256 (ix2 u e) = v (ix1 e) := by
  refine shapeCast_apply v shapeCasts_S256_S1x256 (ix2 u e) (ix1 e) ?_
  rw [Shape.rowMajor_val_one, Shape.rowMajor_val_two]
  show e.val = u.val * 256 + e.val
  have := u.isLt; omega

/-- A [1, 256] row as a 256-vector reads, at e, the row at (0, e). -/
theorem rowVec_apply {α : Type} (v : S1x256.Idx → α) (e : Fin 256) :
    shapeCast S256 v shapeCasts_S1x256_S256 (ix1 e) = v (ix2 (0 : Fin 1) e) := by
  refine shapeCast_apply v shapeCasts_S1x256_S256 (ix1 e) (ix2 (0 : Fin 1) e) ?_
  rw [Shape.rowMajor_val_one, Shape.rowMajor_val_two]
  show (0 : ℕ) * 256 + e.val = e.val
  omega

/-! ## The normalizer column -/

/-- rowsum(A) + 1 as a [512, 1] column. -/
def rowDen (A : FVec Ideal S512x512 .f32) : FVec Ideal S512x1 .f32 :=
  addf (shapeCast S512x1 (multiReduction .add [1] S512 A 0x00000000#32 reduces_S512x512_S512 (.inl rfl) rfl) shapeCasts_S512_S512x1)
    (broadcast S512x1 (Scalar.ofBits .f32 0x3F800000#32))

theorem rowDen_apply (A : FVec Ideal S512x512 .f32) (s : Fin 512) (z : Fin 1) :
    rowDen A (ix2 s z) = Gcn.denomAt (fun s t => A (ix2 s t)) s := by
  show shapeCast S512x1 _ shapeCasts_S512_S512x1 (ix2 s z) + Ideal.ofBits .f32 0x3F800000#32 = _
  rw [Keepdims.shapeCast_a_a1_apply, Keepdims.laneSum_apply]
  rfl

/-! ## One layer -/

/-- The layer as the body spells it, from the adjacency matrix, the features it reads, the linear map and bias row as
    loaded, and the normalizer column. -/
def layer (A : FVec Ideal S512x512 .f32) (Y : FVec Ideal S512x256 .f32) (W1 : Vec Ideal S1x256x256 .f32)
    (b1 : Vec Ideal S1x256 .f32) (den : FVec Ideal S512x1 .f32) : FVec Ideal S512x256 .f32 :=
  maximumf
    (divf
      (addf
        (matmul dot_S512x256_S256x256_S512x256_1_1_0_0_n_n none
          (truncf .bf16
            (addf (matmul dot_S512x512_S512x256_S512x256_1_0_0_1_n_n none (truncf .bf16 A bitsLt_bf16_f32)
              (truncf .bf16 Y bitsLt_bf16_f32) (constant S512x256 .f32 0x00000000#32)) Y) bitsLt_bf16_f32)
          (truncf .bf16 (shapeCast S256x256 W1 shapeCasts_S1x256x256_S256x256) bitsLt_bf16_f32)
          (constant S512x256 .f32 0x00000000#32))
        (broadcastTo S512x256
          (shapeCast S1x256 (mulf (broadcast S256 (Scalar.ofBits .f32 0x40000000#32)) (shapeCast S256 b1 shapeCasts_S1x256_S256))
            shapeCasts_S256_S1x256) broadcasts_S1x256_S512x256))
      (broadcastTo S512x256 den broadcasts_S512x1_S512x256))
    (broadcast S512x256 (Scalar.ofBits .f32 0x00000000#32))

/-- The layer at (s, e), over the operands' entries and the column's entry at (s, 0). -/
theorem layer_apply (A : FVec Ideal S512x512 .f32) (Y : FVec Ideal S512x256 .f32) (W1 : Vec Ideal S1x256x256 .f32)
    (b1 : Vec Ideal S1x256 .f32) (den : FVec Ideal S512x1 .f32) (s : Fin 512) (e : Fin 256) :
    layer A Y W1 b1 den (ix2 s e)
      = max (Ideal.div ((∑ d : Fin 256, ((∑ t : Fin 512, A (ix2 s t) * Y (ix2 t d)) + Y (ix2 s d)) * W1 (ix3 (0 : Fin 1) e d))
          + Gcn.twoW * b1 (ix2 (0 : Fin 1) e)) (den (ix2 s (0 : Fin 1)))) Gcn.zeroW := by
  unfold layer
  rw [maximumf_apply, divf_apply, addf_apply, mmW_apply, rowSpread_apply, vecRow_apply, mulf_apply, broadcast_apply,
    Keepdims.broadcastTo_a1_ab_apply, broadcast_apply]
  simp only [truncf_apply, addf_apply, mmA_apply, shapeCast_1ab_ab_apply, rowVec_apply]
  rfl

/-- With the normalizer of the same adjacency matrix, the layer is the specification's. -/
theorem layer_eq (A : FVec Ideal S512x512 .f32) (Y : FVec Ideal S512x256 .f32) (W1 : Vec Ideal S1x256x256 .f32)
    (b1 : Vec Ideal S1x256 .f32) (s : Fin 512) (e : Fin 256) :
    layer A Y W1 b1 (rowDen A) (ix2 s e)
      = Gcn.layerAt (fun s t => A (ix2 s t)) (fun t d => Y (ix2 t d)) (fun e d => W1 (ix3 (0 : Fin 1) e d))
          (fun e => b1 (ix2 (0 : Fin 1) e)) s e := by
  rw [layer_apply, rowDen_apply]
  rfl

/-! ## The output projection -/

/-- X + (F·W_outᵀ + b_out), as the body spells it, as a [1, 512, 256] block. -/
def project (X : FVec Ideal S512x256 .f32) (Fj : Vec Ideal S512x1536 .f32) (Wout : Vec Ideal S256x1536 .f32)
    (bout : Vec Ideal S1x256 .f32) : FVec Ideal S1x512x256 .f32 :=
  shapeCast S1x512x256
    (addf X
      (addf
        (matmul dot_S512x1536_S256x1536_S512x256_1_1_0_0_n_n none (truncf .bf16 Fj bitsLt_bf16_f32)
          (truncf .bf16 Wout bitsLt_bf16_f32) (constant S512x256 .f32 0x00000000#32))
        (broadcastTo S512x256
          (shapeCast S1x256 (shapeCast S1x256 bout shapeCasts_S1x256_S1x256) shapeCasts_S1x256_S1x256)
          broadcasts_S1x256_S512x256)))
    shapeCasts_S512x256_S1x512x256

theorem project_apply (X : FVec Ideal S512x256 .f32) (Fj : Vec Ideal S512x1536 .f32) (Wout : Vec Ideal S256x1536 .f32)
    (bout : Vec Ideal S1x256 .f32) (u : Fin 1) (s : Fin 512) (e : Fin 256) :
    project X Fj Wout bout (ix3 u s e)
      = Gcn.resultAt (fun s e => X (ix2 s e)) (fun s f => Fj (ix2 s f)) (fun e f => Wout (ix2 e f))
          (fun e => bout (ix2 (0 : Fin 1) e)) s e := by
  unfold project
  rw [shapeCast_ab_1ab_apply, shapeCast_self, shapeCast_self]
  show X (ix2 s e) + (matmul dot_S512x1536_S256x1536_S512x256_1_1_0_0_n_n none _ _ (constant S512x256 .f32 0x00000000#32) (ix2 s e)
      + broadcastTo S512x256 bout broadcasts_S1x256_S512x256 (ix2 s e)) = _
  rw [mmO_apply, rowSpread_apply]
  rfl

end Cert.KernelIdeal.Ker

end
-- ==== Proof.KerBody.lean ====
/-
  What the kernel's body leaves in its output block, entry by entry.

  At one grid point the body reads the point's blocks — the three adjacency matrices of one batch element
  x0 [3, 1, 512, 512], its features x1 [1, 512, 256], the six linear maps x2 [6, 256, 256] and bias rows x3 [6, 256], the
  output map x4 [256, 1536] and the output bias row x5 [1, 256] — and writes six layer results into the columns
  256·k … 256·k + 255 of a [512, 1536] scratch array (k = 2·head + layer), reads the scratch array back whole and stores
  X + (scratch·W_outᵀ + b_out). Read on the extended reals:
    • each of the six stored blocks is one layer of KerOps (the body's stretches of arithmetic are that layer, by
      unfolding);
    • the scratch array read back is the six blocks side by side (every column lies in exactly one of the six
      stores' rectangles);
    • so the stored block at (0, s, e) is the specification's `Gcn.resultAt` over `Gcn.catAt` of six `Gcn.layerAt`s
      of the blocks' entries.
-/
import proofs.«146254_j90305982366169_1_alg».proof.Proof.Gen.KernelIdeal.Frame
import proofs.«146254_j90305982366169_1_alg».proof.Proof.KerOps
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Ker
open Idealize.ShloMosaic Idealize.ShloMosaic.TcCoe Idealize.SL.Sem Idealize.ShloMosaic.Tactic Idealize.ShloMosaic.ValueIdx

/-! ## The body's stretches of arithmetic are layers -/

/-- The image cast of an adjacency block, under its three names in the body. -/
abbrev img (v : Vec Ideal S1x1x512x512 .f32) : FVec Ideal S512x512 .f32 := shapeCast S512x512 v shapeCasts_S1x1x512x512_S512x512

theorem pay8_eq (v0 : Vec Ideal S1x512x256 .f32) (v2 : Vec Ideal S1x1x512x512 .f32) (v13 : Vec Ideal S1x256x256 .f32)
    (v17 : Vec Ideal S1x256 .f32) :
    k0_pay8 v0 v2 v13 v17 = layer (img v2) (k0_pay3 v0) v13 v17 (rowDen (img v2)) :=
  shapeCast_self _ shapeCasts_S512x256_S512x256

theorem pay10_eq (v0 : Vec Ideal S1x512x256 .f32) (v2 : Vec Ideal S1x1x512x512 .f32) (v13 : Vec Ideal S1x256x256 .f32)
    (v17 : Vec Ideal S1x256 .f32) (v35 : Vec Ideal S1x256x256 .f32) (v39 : Vec Ideal S1x256 .f32) :
    k0_pay10 (k0_pay5 v2) (k0_pay9 v0 v2 v13 v17) v35 v39
      = layer (img v2) (layer (img v2) (k0_pay3 v0) v13 v17 (rowDen (img v2))) v35 v39 (rowDen (img v2)) :=
  shapeCast_self _ shapeCasts_S512x256_S512x256

theorem pay17_eq (v1 : FVec Ideal S512x256 .f32) (v53 : Vec Ideal S1x1x512x512 .f32) (v64 : Vec Ideal S1x256x256 .f32)
    (v68 : Vec Ideal S1x256 .f32) :
    k0_pay17 (k0_pay12 v53) (k0_pay14 v1 v53 v64) (k0_pay15 v68) = layer (img v53) v1 v64 v68 (rowDen (img v53)) :=
  shapeCast_self _ shapeCasts_S512x256_S512x256

theorem pay18_eq (v1 : FVec Ideal S512x256 .f32) (v53 : Vec Ideal S1x1x512x512 .f32) (v64 : Vec Ideal S1x256x256 .f32)
    (v68 : Vec Ideal S1x256 .f32) (v86 : Vec Ideal S1x256x256 .f32) (v90 : Vec Ideal S1x256 .f32) :
    k0_pay18 (k0_pay12 v53) (k0_pay13 v53) (k0_pay14 v1 v53 v64) (k0_pay15 v68) v86 v90
      = layer (img v53) (layer (img v53) v1 v64 v68 (rowDen (img v53))) v86 v90 (rowDen (img v53)) :=
  shapeCast_self _ shapeCasts_S512x256_S512x256

theorem pay23_eq (v1 : FVec Ideal S512x256 .f32) (v104 : Vec Ideal S1x1x512x512 .f32) (v115 : Vec Ideal S1x256x256 .f32)
    (v119 : Vec Ideal S1x256 .f32) :
    k0_pay23 v1 (k0_pay19 v104) (k0_pay20 v104) v115 v119 = layer (img v104) v1 v115 v119 (rowDen (img v104)) :=
  shapeCast_self _ shapeCasts_S512x256_S512x256

theorem pay1_eq (v1 : FVec Ideal S512x256 .f32) (v104 : Vec Ideal S1x1x512x512 .f32) (v115 : Vec Ideal S1x256x256 .f32)
    (v119 : Vec Ideal S1x256 .f32) (v137 : Vec Ideal S1x256x256 .f32) (v141 : Vec Ideal S1x256 .f32) :
    k0_pay1 (k0_pay24 v1 (k0_pay19 v104) (k0_pay20 v104) v115 v119 v137 v141)
      = layer (img v104) (layer (img v104) v1 v115 v119 (rowDen (img v104))) v137 v141 (rowDen (img v104)) :=
  shapeCast_self _ shapeCasts_S512x256_S512x256

theorem pay2_eq (v1 : FVec Ideal S512x256 .f32) (v155 : Vec Ideal S512x1536 .f32) (v157 : Vec Ideal S256x1536 .f32)
    (v160 : Vec Ideal S1x256 .f32) : k0_pay2 v1 v155 v157 v160 = project v1 v155 v157 v160 := rfl

/-! ## The blocks' entries -/

section blocks

variable (x0 : Vec Ideal S3x1x512x512 .f32) (x1 : Vec Ideal S1x512x256 .f32) (x2 : Vec Ideal S6x256x256 .f32)
  (x3 : Vec Ideal S6x256 .f32) (x4 : Vec Ideal S256x1536 .f32) (x5 : Vec Ideal S1x256 .f32)

/-- Head h's adjacency matrix, the features, the k-th map and bias, as entries of the point's blocks. -/
def bAdj (h : Fin 3) : Fin 512 → Fin 512 → EReal := fun s t => x0 (ix4 h (0 : Fin 1) s t)
def bFeat : Fin 512 → Fin 256 → EReal := fun s d => x1 (ix3 (0 : Fin 1) s d)
def bLin (k : Fin 6) : Fin 256 → Fin 256 → EReal := fun e d => x2 (ix3 k e d)
def bBias (k : Fin 6) : Fin 256 → EReal := fun e => x3 (ix2 k e)
/-- Head h's two layers over the blocks. -/
def bFirst (h : Fin 3) (k : Fin 6) : Fin 512 → Fin 256 → EReal :=
  Gcn.layerAt (bAdj x0 h) (bFeat x1) (bLin x2 k) (bBias x3 k)
def bSecond (h : Fin 3) (k k' : Fin 6) : Fin 512 → Fin 256 → EReal :=
  Gcn.layerAt (bAdj x0 h) (bFirst x0 x1 x2 x3 h k) (bLin x2 k') (bBias x3 k')
/-- The block the body stores, entry by entry. -/
def bResult (s : Fin 512) (e : Fin 256) : EReal :=
  Gcn.resultAt (bFeat x1)
    (Gcn.catAt (bFirst x0 x1 x2 x3 0 0) (bSecond x0 x1 x2 x3 0 0 1) (bFirst x0 x1 x2 x3 1 2) (bSecond x0 x1 x2 x3 1 2 3)
      (bFirst x0 x1 x2 x3 2 4) (bSecond x0 x1 x2 x3 2 4 5))
    (fun e f => x4 (ix2 e f)) (fun e => x5 (ix2 (0 : Fin 1) e)) s e

/-- A load of head h's [1, 1, 512, 512] slab reads, at (0, 0, s, t), the block at (h, 0, s, t). -/
theorem ldAdj_apply (h : Nat) (inb : ∀ a, (![h, 0, 0, 0] : Fin 4 → Nat) a + S1x1x512x512.size a ≤ S3x1x512x512.size a)
    (s t : Fin 512) :
    img (View.ld x0 (Rect.unit (s := S3x1x512x512) ![h, 0, 0, 0] S1x1x512x512.size inb)) (ix2 s t)
      = bAdj x0 ⟨h, by have := inb 0; exact Nat.lt_of_succ_le this⟩ s t := by
  unfold img
  rw [ImageCast.shapeCast_11ab_ab_apply]
  exact congrArg x0 (funext fun a => Fin.ext (by
    match a with
    | ⟨0, _⟩ => show h + 1 * 0 = h; omega
    | ⟨1, _⟩ => rfl
    | ⟨2, _⟩ => show 0 + 1 * s.val = s.val; omega
    | ⟨3, _⟩ => show 0 + 1 * t.val = t.val; omega))

/-- A load of the k-th [1, 256, 256] map reads, at (0, e, d), the maps at (k, e, d). -/
theorem ldLin_apply (k : Nat) (inb : ∀ a, (![k, 0, 0] : Fin 3 → Nat) a + S1x256x256.size a ≤ S6x256x256.size a)
    (e d : Fin 256) :
    View.ld x2 (Rect.unit (s := S6x256x256) ![k, 0, 0] S1x256x256.size inb) (ix3 (0 : Fin 1) e d)
      = bLin x2 ⟨k, by have := inb 0; exact Nat.lt_of_succ_le this⟩ e d :=
  congrArg x2 (funext fun a => Fin.ext (by
    match a with
    | ⟨0, _⟩ => show k + 1 * 0 = k; omega
    | ⟨1, _⟩ => show 0 + 1 * e.val = e.val; omega
    | ⟨2, _⟩ => show 0 + 1 * d.val = d.val; omega))

/-- A load of the k-th [1, 256] bias row reads, at (0, e), the rows at (k, e). -/
theorem ldBias_apply (k : Nat) (inb : ∀ a, (![k, 0] : Fin 2 → Nat) a + S1x256.size a ≤ S6x256.size a) (e : Fin 256) :
    View.ld x3 (Rect.unit (s := S6x256) ![k, 0] S1x256.size inb) (ix2 (0 : Fin 1) e)
      = bBias x3 ⟨k, by have := inb 0; exact Nat.lt_of_succ_le this⟩ e :=
  congrArg x3 (funext fun a => Fin.ext (by
    match a with
    | ⟨0, _⟩ => show k + 1 * 0 = k; omega
    | ⟨1, _⟩ => show 0 + 1 * e.val = e.val; omega))

/-- The features block as a [512, 256] array. -/
theorem feat_apply (s : Fin 512) (d : Fin 256) : k0_pay3 x1 (ix2 s d) = bFeat x1 s d := by
  unfold k0_pay3
  exact shapeCast_1ab_ab_apply x1 shapeCasts_S1x512x256_S512x256 s d

end blocks

/-! ## The scratch array read back -/

theorem hz2 : (![0, 0] : Fin 2 → Nat) = fun _ => 0 := funext fun a => by fin_cases a <;> rfl
theorem hz3 : (![0, 0, 0] : Fin 3 → Nat) = fun _ => 0 := funext fun a => by fin_cases a <;> rfl

section scratch

variable (o0 o1 o2 o3 o4 o5 : FVec Ideal S512x256 .f32)

/-- The six stores, last first. -/
abbrev stores : List (View.Piece (Elt Ideal) S512x1536 .f32) :=
  [⟨Rect.unit ![0, 1280] S512x256.size inb_S512x1536_S512x256_0_1280, o5⟩,
   ⟨Rect.unit ![0, 1024] S512x256.size inb_S512x1536_S512x256_0_1024, o4⟩,
   ⟨Rect.unit ![0, 768] S512x256.size inb_S512x1536_S512x256_0_768, o3⟩,
   ⟨Rect.unit ![0, 512] S512x256.size inb_S512x1536_S512x256_0_512, o2⟩,
   ⟨Rect.unit ![0, 256] S512x256.size inb_S512x1536_S512x256_0_256, o1⟩,
   ⟨Rect.unit ![0, 0] S512x256.size inb_S512x1536_S512x256_0_0, o0⟩]

/-- Every entry of the scratch array lies in one of the six stores' rectangles: column f in the one of columns
    256·(f / 256) … 256·(f / 256) + 255. -/
theorem stores_cover (y : S512x1536.Idx) : ∃ p ∈ stores o0 o1 o2 o3 o4 o5, y ∈ p.1.set := by
  have h0 : (y 0).val < 512 := idx2_lt0 y
  have h1 : (y 1).val < 1536 := idx2_lt1 y
  have key : ∀ (off : Nat) (inb : ∀ a, (![0, off] : Fin 2 → Nat) a + S512x256.size a ≤ S512x1536.size a),
      off ≤ (y 1).val → (y 1).val < off + 256 → y ∈ (Rect.unit (s := S512x1536) ![0, off] S512x256.size inb).set := by
    intro off inb hlo hhi
    rw [Rect.mem_set_unit]
    intro a
    match a with
    | ⟨0, _⟩ => exact ⟨Nat.zero_le _, by show (y 0).val < 0 + 512; omega⟩
    | ⟨1, _⟩ => exact ⟨hlo, hhi⟩
  by_cases c1 : (y 1).val < 256
  · exact ⟨⟨Rect.unit ![0, 0] S512x256.size inb_S512x1536_S512x256_0_0, o0⟩,
      List.mem_cons_of_mem _ (List.mem_cons_of_mem _ (List.mem_cons_of_mem _ (List.mem_cons_of_mem _ (List.mem_cons_of_mem _ List.mem_cons_self)))),
      key 0 inb_S512x1536_S512x256_0_0 (Nat.zero_le _) (by omega)⟩
  by_cases c2 : (y 1).val < 512
  · exact ⟨⟨Rect.unit ![0, 256] S512x256.size inb_S512x1536_S512x256_0_256, o1⟩,
      List.mem_cons_of_mem _ (List.mem_cons_of_mem _ (List.mem_cons_of_mem _ (List.mem_cons_of_mem _ List.mem_cons_self))),
      key 256 inb_S512x1536_S512x256_0_256 (by omega) (by omega)⟩
  by_cases c3 : (y 1).val < 768
  · exact ⟨⟨Rect.unit ![0, 512] S512x256.size inb_S512x1536_S512x256_0_512, o2⟩,
      List.mem_cons_of_mem _ (List.mem_cons_of_mem _ (List.mem_cons_of_mem _ List.mem_cons_self)),
      key 512 inb_S512x1536_S512x256_0_512 (by omega) (by omega)⟩
  by_cases c4 : (y 1).val < 1024
  · exact ⟨⟨Rect.unit ![0, 768] S512x256.size inb_S512x1536_S512x256_0_768, o3⟩,
      List.mem_cons_of_mem _ (List.mem_cons_of_mem _ List.mem_cons_self),
      key 768 inb_S512x1536_S512x256_0_768 (by omega) (by omega)⟩
  by_cases c5 : (y 1).val < 1280
  · exact ⟨⟨Rect.unit ![0, 1024] S512x256.size inb_S512x1536_S512x256_0_1024, o4⟩,
      List.mem_cons_of_mem _ List.mem_cons_self,
      key 1024 inb_S512x1536_S512x256_0_1024 (by omega) (by omega)⟩
  · exact ⟨⟨Rect.unit ![0, 1280] S512x256.size inb_S512x1536_S512x256_0_1280, o5⟩,
      List.mem_cons_self,
      key 1280 inb_S512x1536_S512x256_0_1280 (by omega) (by omega)⟩

/-- What the six stores leave, at (s, f): the six blocks side by side. -/
theorem stores_apply (s : Fin 512) (f : Fin 1536) :
    View.canon (stores o0 o1 o2 o3 o4 o5) (ix2 s f)
      = Gcn.catAt (fun s e => o0 (ix2 s e)) (fun s e => o1 (ix2 s e)) (fun s e => o2 (ix2 s e)) (fun s e => o3 (ix2 s e))
          (fun s e => o4 (ix2 s e)) (fun s e => o5 (ix2 s e)) s f := by
  refine View.canon_apply_of_pieces
    (fun y : S512x1536.Idx => Gcn.catAt (fun s e => o0 (ix2 s e)) (fun s e => o1 (ix2 s e)) (fun s e => o2 (ix2 s e))
      (fun s e => o3 (ix2 s e)) (fun s e => o4 (ix2 s e)) (fun s e => o5 (ix2 s e))
      ⟨(y 0).val, idx2_lt0 y⟩ ⟨(y 1).val, idx2_lt1 y⟩) (stores o0 o1 o2 o3 o4 o5) ?_ (ix2 s f) (stores_cover o0 o1 o2 o3 o4 o5 _)
  intro p hp x
  simp only [stores, List.mem_cons, List.not_mem_nil, or_false] at hp
  rcases hp with rfl | rfl | rfl | rfl | rfl | rfl <;> have hx1 : (x 1).val < 256 := (x 1).isLt
  · refine Eq.trans ?_ (Gcn.catAt_5 _ _ _ _ _ _ _ _ (show 1280 ≤ 1280 + 1 * (x 1).val by omega)).symm
    exact congrArg o5 (funext fun a => Fin.ext (by
      match a with
      | ⟨0, _⟩ => show (x 0).val = 0 + 1 * (x 0).val; omega
      | ⟨1, _⟩ => show (x 1).val = 1280 + 1 * (x 1).val - 1280; omega))
  · refine Eq.trans ?_ (Gcn.catAt_4 _ _ _ _ _ _ _ _ (show 1024 ≤ 1024 + 1 * (x 1).val by omega) (show 1024 + 1 * (x 1).val < 1280 by omega)).symm
    exact congrArg o4 (funext fun a => Fin.ext (by
      match a with
      | ⟨0, _⟩ => show (x 0).val = 0 + 1 * (x 0).val; omega
      | ⟨1, _⟩ => show (x 1).val = 1024 + 1 * (x 1).val - 1024; omega))
  · refine Eq.trans ?_ (Gcn.catAt_3 _ _ _ _ _ _ _ _ (show 768 ≤ 768 + 1 * (x 1).val by omega) (show 768 + 1 * (x 1).val < 1024 by omega)).symm
    exact congrArg o3 (funext fun a => Fin.ext (by
      match a with
      | ⟨0, _⟩ => show (x 0).val = 0 + 1 * (x 0).val; omega
      | ⟨1, _⟩ => show (x 1).val = 768 + 1 * (x 1).val - 768; omega))
  · refine Eq.trans ?_ (Gcn.catAt_2 _ _ _ _ _ _ _ _ (show 512 ≤ 512 + 1 * (x 1).val by omega) (show 512 + 1 * (x 1).val < 768 by omega)).symm
    exact congrArg o2 (funext fun a => Fin.ext (by
      match a with
      | ⟨0, _⟩ => show (x 0).val = 0 + 1 * (x 0).val; omega
      | ⟨1, _⟩ => show (x 1).val = 512 + 1 * (x 1).val - 512; omega))
  · refine Eq.trans ?_ (Gcn.catAt_1 _ _ _ _ _ _ _ _ (show 256 ≤ 256 + 1 * (x 1).val by omega) (show 256 + 1 * (x 1).val < 512 by omega)).symm
    exact congrArg o1 (funext fun a => Fin.ext (by
      match a with
      | ⟨0, _⟩ => show (x 0).val = 0 + 1 * (x 0).val; omega
      | ⟨1, _⟩ => show (x 1).val = 256 + 1 * (x 1).val - 256; omega))
  · refine Eq.trans ?_ (Gcn.catAt_0 _ _ _ _ _ _ _ _ (show 0 + 1 * (x 1).val < 256 by omega)).symm
    exact congrArg o0 (funext fun a => Fin.ext (by
      match a with
      | ⟨0, _⟩ => show (x 0).val = 0 + 1 * (x 0).val; omega
      | ⟨1, _⟩ => show (x 1).val = 0 + 1 * (x 1).val; omega))

end scratch

/-! ## The stored block -/

section out

variable (c : Dev nD) (i : grid0.Coords)
  (arg1 : Memref sig .tc .vmem S3x1x512x512 .f32) (harg1 : arg1.IsWhole) (arg2 : Memref sig .tc .vmem S1x512x256 .f32) (harg2 : arg2.IsWhole)
  (arg3 : Memref sig .tc .vmem S6x256x256 .f32) (harg3 : arg3.IsWhole) (arg4 : Memref sig .tc .vmem S6x256 .f32) (harg4 : arg4.IsWhole)
  (arg5 : Memref sig .tc .vmem S256x1536 .f32) (harg5 : arg5.IsWhole) (arg6 : Memref sig .tc .vmem S1x256 .f32) (harg6 : arg6.IsWhole)
  (arg7 : Memref sig .tc .vmem S1x512x256 .f32) (harg7 : arg7.IsWhole) (arg8 : Memref sig .tc .vmem S512x1536 .f32) (harg8 : arg8.IsWhole)
  (x0 : Vec Ideal S3x1x512x512 .f32) (x1 : Vec Ideal S1x512x256 .f32) (x2 : Vec Ideal S6x256x256 .f32)
  (x3 : Vec Ideal S6x256 .f32) (x4 : Vec Ideal S256x1536 .f32) (x5 : Vec Ideal S1x256 .f32)

/-- What the body leaves in the output's staging buffer, at (0, s, e): the block's result over the point's blocks. -/
theorem out_apply (u : Fin 1) (s : Fin 512) (e : Fin 256) :
    out0_A_6 (F := Ideal) c i arg1 harg1 arg2 harg2 arg3 harg3 arg4 harg4 arg5 harg5 arg6 harg6 arg7 harg7 arg8 harg8
        x0 x1 x2 x3 x4 x5 (ix3 u s e)
      = bResult x0 x1 x2 x3 x4 x5 s e := by
  unfold out0_A_6
  rw [View.read_writes_eq_canon _ _ _ (cover0_A_6 c i arg1 harg1 arg2 harg2 arg3 harg3 arg4 harg4 arg5 harg5 arg6 harg6 arg7 harg7
    arg8 harg8 x0 x1 x2 x3 x4 x5)]
  unfold kernelRun0_A
  dsimp only
  sl_unfold_words
  rw [View.canon_unit_zero hz3]
  simp only [View.readAt_eq_ld, harg1.read_unread, harg2.read_unread, harg3.read_unread, harg4.read_unread, harg5.read_unread,
    harg6.read_unread, View.ld_unit_zero (S := S1x512x256) hz3, View.ld_unit_zero (S := S256x1536) hz2,
    View.ld_unit_zero (S := S1x256) hz2]
  rw [pay2_eq, pay8_eq, pay10_eq, pay17_eq, pay18_eq, pay23_eq, pay1_eq, project_apply]
  rw [View.readCov_eq_canon_ld _ _ _ (stores_cover _ _ _ _ _ _), View.ld_unit_zero (S := S512x1536) hz2]
  simp only [stores_apply, layer_eq, ldAdj_apply, ldLin_apply x2, ldBias_apply x3, feat_apply]
  rfl

end out

end Cert.KernelIdeal.Body

end
-- ==== Proof.KerValue.lean ====
/-
  From the blocks to the whole result array.

  The grid has one point per batch element. At point t the windows stage: the three adjacency matrices of batch
  element t (rows (h, t, ·, ·) of the first argument), its features (rows (t, ·, ·) of the second), and — the same at
  every point — the six linear maps, the six bias rows, the output map and the output bias as a [1, 256] row (a
  reshape of the last argument, made before the call). The output window's block at point t is rows (t, ·, ·) of the
  result. So what point t writes back is block t of the specification's `Gcn.G` of the argument arrays, the 32 blocks
  cover the result array, and the result array ends at `Gcn.G` of the arguments.
-/
import proofs.«146254_j90305982366169_1_alg».proof.Proof.Gen.KernelIdeal.Value
import proofs.«146254_j90305982366169_1_alg».proof.Proof.KerBody
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Value Cert.KernelIdeal.Body Cert.KernelIdeal.Ker
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as the specification gives it from the argument arrays. -/
def res (c : Dev nD) : Buf (Elt Ideal) ((c : Thread nD τ).loc main_v1) :=
  Gcn.G (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))

/-- The printed index maps, decided over the 32 points: the batch axis of the adjacency, feature and output windows
    moves with the point, everything else stays at block 0. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem lt32 (t : Fin cfg0.N) : t.val < 32 := by
  have h := t.isLt
  have e : cfg0.N = 32 := N_0
  omega

/-! ## The windows' blocks at point t -/

/-- The adjacency block: rows (h, t, ·, ·) of the first argument. -/
theorem blk0_apply (c : Dev nD) (t : Fin cfg0.N) (h : Fin 3) (u : Fin 1) (s t' : Fin 512) :
    (iblk m c 0 t : Vec Ideal S3x1x512x512 .f32) (ix4 h u s t')
      = m ((c : Thread nD τ).loc main_arg0) (ix4 h ⟨t.val, lt32 t⟩ s t') := by
  obtain ⟨e0, e1, e2, e3, -⟩ := idx_facts t
  have hu : u.val = 0 := by omega
  unfold iblk
  rw [View.read_apply]
  show V m c main_arg0 _ = _
  rw [V_main_arg0]
  refine congrArg _ (funext fun a => Fin.ext ?_)
  match a with
  | ⟨0, _⟩ => show win0_0.index t (0 : Fin 4) * 3 + 1 * h.val = h.val; rw [e0]; omega
  | ⟨1, _⟩ => show win0_0.index t (1 : Fin 4) * 1 + 1 * u.val = t.val; rw [e1]; omega
  | ⟨2, _⟩ => show win0_0.index t (2 : Fin 4) * 512 + 1 * s.val = s.val; rw [e2]; omega
  | ⟨3, _⟩ => show win0_0.index t (3 : Fin 4) * 512 + 1 * t'.val = t'.val; rw [e3]; omega

/-- The feature block: rows (t, ·, ·) of the second argument. -/
theorem blk1_apply (c : Dev nD) (t : Fin cfg0.N) (u : Fin 1) (s : Fin 512) (d : Fin 256) :
    (iblk m c 1 t : Vec Ideal S1x512x256 .f32) (ix3 u s d)
      = m ((c : Thread nD τ).loc main_arg1) (ix3 ⟨t.val, lt32 t⟩ s d) := by
  obtain ⟨-, -, -, -, e0, e1, e2, -⟩ := idx_facts t
  have hu : u.val = 0 := by omega
  unfold iblk
  rw [View.read_apply]
  show V m c main_arg1 _ = _
  rw [V_main_arg1]
  refine congrArg _ (funext fun a => Fin.ext ?_)
  match a with
  | ⟨0, _⟩ => show win0_1.index t (0 : Fin 3) * 1 + 1 * u.val = t.val; rw [e0]; omega
  | ⟨1, _⟩ => show win0_1.index t (1 : Fin 3) * 512 + 1 * s.val = s.val; rw [e1]; omega
  | ⟨2, _⟩ => show win0_1.index t (2 : Fin 3) * 256 + 1 * d.val = d.val; rw [e2]; omega

/-- The six linear maps, whole. -/
theorem blk2_apply (c : Dev nD) (t : Fin cfg0.N) (k : Fin 6) (e d : Fin 256) :
    (iblk m c 2 t : Vec Ideal S6x256x256 .f32) (ix3 k e d) = m ((c : Thread nD τ).loc main_arg4) (ix3 k e d) := by
  obtain ⟨-, -, -, -, -, -, -, e0, e1, e2, -⟩ := idx_facts t
  unfold iblk
  rw [View.read_apply]
  show V m c main_arg4 _ = _
  rw [V_main_arg4]
  refine congrArg _ (funext fun a => Fin.ext ?_)
  match a with
  | ⟨0, _⟩ => show win0_2.index t (0 : Fin 3) * 6 + 1 * k.val = k.val; rw [e0]; omega
  | ⟨1, _⟩ => show win0_2.index t (1 : Fin 3) * 256 + 1 * e.val = e.val; rw [e1]; omega
  | ⟨2, _⟩ => show win0_2.index t (2 : Fin 3) * 256 + 1 * d.val = d.val; rw [e2]; omega

/-- The six bias rows, whole. -/
theorem blk3_apply (c : Dev nD) (t : Fin cfg0.N) (k : Fin 6) (e : Fin 256) :
    (iblk m c 3 t : Vec Ideal S6x256 .f32) (ix2 k e) = m ((c : Thread nD τ).loc main_arg5) (ix2 k e) := by
  obtain ⟨-, -, -, -, -, -, -, -, -, -, e0, e1, -⟩ := idx_facts t
  unfold iblk
  rw [View.read_apply]
  show V m c main_arg5 _ = _
  rw [V_main_arg5]
  refine congrArg _ (funext fun a => Fin.ext ?_)
  match a with
  | ⟨0, _⟩ => show win0_3.index t (0 : Fin 2) * 6 + 1 * k.val = k.val; rw [e0]; omega
  | ⟨1, _⟩ => show win0_3.index t (1 : Fin 2) * 256 + 1 * e.val = e.val; rw [e1]; omega

/-- The output map, whole. -/
theorem blk4_apply (c : Dev nD) (t : Fin cfg0.N) (e : Fin 256) (f : Fin 1536) :
    (iblk m c 4 t : Vec Ideal S256x1536 .f32) (ix2 e f) = m ((c : Thread nD τ).loc main_arg6) (ix2 e f) := by
  obtain ⟨-, -, -, -, -, -, -, -, -, -, -, -, e0, e1, -⟩ := idx_facts t
  unfold iblk
  rw [View.read_apply]
  show V m c main_arg6 _ = _
  rw [V_main_arg6]
  refine congrArg _ (funext fun a => Fin.ext ?_)
  match a with
  | ⟨0, _⟩ => show win0_4.index t (0 : Fin 2) * 256 + 1 * e.val = e.val; rw [e0]; omega
  | ⟨1, _⟩ => show win0_4.index t (1 : Fin 2) * 1536 + 1 * f.val = f.val; rw [e1]; omega

/-- The output bias reaches the call as a [1, 256] row: the reshape of the last argument made before the call. -/
theorem V_row (c : Dev nD) :
    (V m c main_v0 : S1x256.Idx → EReal) = shapeCast S1x256 (m ((c : Thread nD τ).loc main_arg7)) shapeCasts_S256_S1x256 := by
  dsimp only [Gen.V, Gen.hostOps0]; after_results; rfl

/-- The output bias row: at (0, e), the last argument at e. -/
theorem blk5_apply (c : Dev nD) (t : Fin cfg0.N) (u : Fin 1) (e : Fin 256) :
    (iblk m c 5 t : Vec Ideal S1x256 .f32) (ix2 u e) = m ((c : Thread nD τ).loc main_arg7) (ix1 e) := by
  obtain ⟨-, -, -, -, -, -, -, -, -, -, -, -, -, -, e0, e1, -⟩ := idx_facts t
  have hu : u.val = 0 := by omega
  unfold iblk
  rw [View.read_apply]
  show V m c main_v0 _ = _
  rw [V_row]
  refine Eq.trans (congrArg _ (funext fun a => Fin.ext ?_)) (vecRow_apply _ (0 : Fin 1) e)
  match a with
  | ⟨0, _⟩ => show win0_5.index t (0 : Fin 2) * 1 + 1 * u.val = 0; rw [e0]; omega
  | ⟨1, _⟩ => show win0_5.index t (1 : Fin 2) * 256 + 1 * e.val = e.val; rw [e1]; omega

/-! ## What point t writes back -/

/-- The specification's result array at (b, s, e). -/
theorem res_apply (c : Dev nD) (b : Fin 32) (s : Fin 512) (e : Fin 256) :
    res m c (ix3 b s e)
      = Gcn.resultAt (Gcn.feat (m ((c : Thread nD τ).loc main_arg1)) b)
          (Gcn.joined (m ((c : Thread nD τ).loc main_arg0)) (m ((c : Thread nD τ).loc main_arg1))
            (m ((c : Thread nD τ).loc main_arg4)) (m ((c : Thread nD τ).loc main_arg5)) b)
          (fun e f => m ((c : Thread nD τ).loc main_arg6) (ix2 e f)) (fun e => m ((c : Thread nD τ).loc main_arg7) (ix1 e)) s e := rfl

section point

variable (c : Dev nD) (t : Fin cfg0.N)

/-- Over the point's blocks, head h's adjacency matrix, the features, the maps and the biases are batch element t's. -/
theorem bAdj_eq (h : Fin 3) :
    bAdj (iblk m c 0 t) h = Gcn.adj (m ((c : Thread nD τ).loc main_arg0)) h ⟨t.val, lt32 t⟩ :=
  funext fun s => funext fun t' => blk0_apply m c t h (0 : Fin 1) s t'
theorem bFeat_eq : bFeat (iblk m c 1 t) = Gcn.feat (m ((c : Thread nD τ).loc main_arg1)) ⟨t.val, lt32 t⟩ :=
  funext fun s => funext fun d => blk1_apply m c t (0 : Fin 1) s d
theorem bLin_eq (k : Fin 6) : bLin (iblk m c 2 t) k = Gcn.lin (m ((c : Thread nD τ).loc main_arg4)) k :=
  funext fun e => funext fun d => blk2_apply m c t k e d
theorem bBias_eq (k : Fin 6) : bBias (iblk m c 3 t) k = Gcn.bias (m ((c : Thread nD τ).loc main_arg5)) k :=
  funext fun e => blk3_apply m c t k e

/-- So the layers over the point's blocks are the specification's layers of batch element t. -/
theorem bFirst_eq (h : Fin 3) (k : Fin 6) :
    bFirst (iblk m c 0 t) (iblk m c 1 t) (iblk m c 2 t) (iblk m c 3 t) h k
      = Gcn.first (m ((c : Thread nD τ).loc main_arg0)) (m ((c : Thread nD τ).loc main_arg1))
          (m ((c : Thread nD τ).loc main_arg4)) (m ((c : Thread nD τ).loc main_arg5)) h k ⟨t.val, lt32 t⟩ := by
  unfold bFirst Gcn.first
  rw [bAdj_eq, bFeat_eq, bLin_eq, bBias_eq]

theorem bSecond_eq (h : Fin 3) (k k' : Fin 6) :
    bSecond (iblk m c 0 t) (iblk m c 1 t) (iblk m c 2 t) (iblk m c 3 t) h k k'
      = Gcn.second (m ((c : Thread nD τ).loc main_arg0)) (m ((c : Thread nD τ).loc main_arg1))
          (m ((c : Thread nD τ).loc main_arg4)) (m ((c : Thread nD τ).loc main_arg5)) h k k' ⟨t.val, lt32 t⟩ := by
  unfold bSecond Gcn.second
  rw [bFirst_eq, bAdj_eq, bLin_eq, bBias_eq]

/-- The body's result over the point's blocks is the specification's result for batch element t. -/
theorem bResult_eq (s : Fin 512) (e : Fin 256) :
    bResult (iblk m c 0 t) (iblk m c 1 t) (iblk m c 2 t) (iblk m c 3 t) (iblk m c 4 t) (iblk m c 5 t) s e
      = res m c (ix3 ⟨t.val, lt32 t⟩ s e) := by
  rw [res_apply]
  unfold bResult Gcn.joined
  rw [bFirst_eq m c t 0 0, bFirst_eq m c t 1 2, bFirst_eq m c t 2 4, bSecond_eq m c t 0 0 1, bSecond_eq m c t 1 2 3,
    bSecond_eq m c t 2 4 5, bFeat_eq]
  simp only [blk4_apply, blk5_apply]

end point

/-- What point t writes back is block t of the specification's result array. -/
theorem flushed_eq (c : Dev nD) (t : Fin cfg0.N) :
    (dats m 0 c).flushed 6 t = ((cfg0.win 6).blk t).view.read (Elt Ideal) (res m c) := by
  obtain ⟨-, -, -, -, -, -, -, -, -, -, -, -, -, -, -, -, e0, e1, e2⟩ := idx_facts t
  rw [flushed6_A]
  refine funext fun (j : S1x512x256.Idx) => ?_
  obtain ⟨u, s, e, rfl⟩ : ∃ (u : Fin 1) (s : Fin 512) (e : Fin 256), j = ix3 u s e := ⟨j 0, j 1, j 2, eq_ix3 j⟩
  have hu : u.val = 0 := by omega
  have hemb : ((cfg0.win 6).blk t).view.emb (ix3 u s e) = ix3 ⟨t.val, lt32 t⟩ s e := funext fun a => Fin.ext (by
    match a with
    | ⟨0, _⟩ => show win0_6.index t (0 : Fin 3) * 1 + 1 * u.val = t.val; rw [e0]; omega
    | ⟨1, _⟩ => show win0_6.index t (1 : Fin 3) * 512 + 1 * s.val = s.val; rw [e1]; omega
    | ⟨2, _⟩ => show win0_6.index t (2 : Fin 3) * 256 + 1 * e.val = e.val; rw [e2]; omega)
  show out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t) (ix3 u s e)
    = res m c (((cfg0.win 6).blk t).view.emb (ix3 u s e))
  rw [hemb]
  exact (out_apply c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t) u s e).trans
    (bResult_eq m c t s e)

/-! ## The whole array -/

/-- Every entry (b, s, e) of the result array lies in point b's block. -/
theorem cover (c : Dev nD) (i : S32x512x256.Idx) :
    ∃ t : Fin cfg0.N, (cfg0.win 6).flush t = true ∧ i ∈ ((cfg0.win 6).blk t).view.set := by
  have hN : cfg0.N = 32 := N_0
  have h0 : (i 0).val < 32 := (i 0).isLt
  have h1 : (i 1).val < 512 := (i 1).isLt
  have h2 : (i 2).val < 256 := (i 2).isLt
  obtain ⟨t, ht⟩ : ∃ t : Fin cfg0.N, t.val = (i 0).val := ⟨⟨(i 0).val, by omega⟩, rfl⟩
  obtain ⟨-, -, -, -, -, -, -, -, -, -, -, -, -, -, -, -, e0, e1, e2⟩ := idx_facts t
  refine ⟨t, flush0_6 t, ?_⟩
  show i ∈ ((View.whole main_v1).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    rw [e0]; omega
  | ⟨1, _⟩ =>
    show win0_6.index t (1 : Fin 3) * 512 ≤ (i 1).val ∧ (i 1).val < win0_6.index t (1 : Fin 3) * 512 + 512
    rw [e1]; omega
  | ⟨2, _⟩ =>
    show win0_6.index t (2 : Fin 3) * 256 ≤ (i 2).val ∧ (i 2).val < win0_6.index t (2 : Fin 3) * 256 + 256
    rw [e2]; omega

/-- After the run the result array is the specification's. -/
theorem final (c : Dev nD) : (dats m 0 c).arrAt 6 cfg0.N = res m c :=
  (dats m 0 c).arrAt_eq_of_cover 6 (res m c) (fun t _ => flushed_eq m c t) (cover c)

/-- The kernel's run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.KValue

end
-- ==== Proof.RefOps.lean ====
/-
  The reference's host operations read entry by entry, on the extended reals.

  The reference works on whole batched arrays: an adjacency array A [32, 512, 512] (one head), features Y [32, 512, 256],
  a linear map W [256, 256] and a bias vector [256]. One layer is

      relu( ((A·Y + Y)·Wᵀ + 2·bias) / den ),     den = (0 + rowsum(A)) + 1  as a [32, 512, 1] array,

  a batched product, a product against the shared map, the bias doubled and spread over batch and rows, and the
  normalizer spread over the features. Read at (b, s, e), the layer is the specification's `Gcn.layerAt` of batch element
  b's entries. The six layer results joined along the feature axis (three pairs, then the three pairs) are read as
  `Gcn.catAt`, and the last step X + (F·W_outᵀ + b_out) as `Gcn.resultAt`.
-/
import proofs.«146254_j90305982366169_1_alg».proof.ReferenceIdeal
import proofs.«146254_j90305982366169_1_alg».proof.Proof.Gen.ReferenceIdeal
import proofs.«146254_j90305982366169_1_alg».proof.Proof.Spec
import Idealize.ShloMosaic.Lib.Pipeline.Value
import Idealize.ShloMosaic.Lib.ValueIdx
import Idealize.ShloMosaic.PureOps.Ideal.Laws

noncomputable section

namespace Cert.ReferenceIdeal.Ref

open Cert.ReferenceIdeal Cert.ReferenceIdeal.Facts₀ Idealize.ShloMosaic Idealize.ShloMosaic.ValueIdx

/-! ## The three products -/

private theorem dotA_apply_l0 (i : S32x512x256.Idx) (q : dot_S32x512x512_S32x512x256_S32x512x256_2_1_1_2_0_0.contr.Idx) :
    (dot_S32x512x512_S32x512x256_S32x512x256_2_1_1_2_0_0.lhsIdx i q 0).val = (i 0).val := by
  unfold DotDims.lhsIdx
  rw [dif_pos (show (0 : Fin S32x512x512.rank) ∈ dot_S32x512x512_S32x512x256_S32x512x256_2_1_1_2_0_0.lhsBatch by decide)]
  rfl
private theorem dotA_apply_l1 (i : S32x512x256.Idx) (q : dot_S32x512x512_S32x512x256_S32x512x256_2_1_1_2_0_0.contr.Idx) :
    (dot_S32x512x512_S32x512x256_S32x512x256_2_1_1_2_0_0.lhsIdx i q 1).val = (i 1).val := by
  unfold DotDims.lhsIdx
  rw [dif_neg (show ¬(1 : Fin S32x512x512.rank) ∈ dot_S32x512x512_S32x512x256_S32x512x256_2_1_1_2_0_0.lhsBatch by decide), dif_pos (show (1 : Fin S32x512x512.rank) ∈ dot_S32x512x512_S32x512x256_S32x512x256_2_1_1_2_0_0.lhsNonContracting by decide)]
  rfl
private theorem dotA_apply_l2 (i : S32x512x256.Idx) (q : dot_S32x512x512_S32x512x256_S32x512x256_2_1_1_2_0_0.contr.Idx) :
    (dot_S32x512x512_S32x512x256_S32x512x256_2_1_1_2_0_0.lhsIdx i q 2).val = (q ⟨0, by decide⟩).val :=
  dot_S32x512x512_S32x512x256_S32x512x256_2_1_1_2_0_0.lhsIdx_val_of_single rfl i q
private theorem dotA_apply_r0 (i : S32x512x256.Idx) (q : dot_S32x512x512_S32x512x256_S32x512x256_2_1_1_2_0_0.contr.Idx) :
    (dot_S32x512x512_S32x512x256_S32x512x256_2_1_1_2_0_0.rhsIdx i q 0).val = (i 0).val := by
  unfold DotDims.rhsIdx
  rw [dif_pos (show (0 : Fin S32x512x256.rank) ∈ dot_S32x512x512_S32x512x256_S32x512x256_2_1_1_2_0_0.rhsBatch by decide)]
  rfl
private theorem dotA_apply_r1 (i : S32x512x256.Idx) (q : dot_S32x512x512_S32x512x256_S32x512x256_2_1_1_2_0_0.contr.Idx) :
    (dot_S32x512x512_S32x512x256_S32x512x256_2_1_1_2_0_0.rhsIdx i q 1).val = (q ⟨0, by decide⟩).val :=
  dot_S32x512x512_S32x512x256_S32x512x256_2_1_1_2_0_0.rhsIdx_val_of_single rfl i q
private theorem dotA_apply_r2 (i : S32x512x256.Idx) (q : dot_S32x512x512_S32x512x256_S32x512x256_2_1_1_2_0_0.contr.Idx) :
    (dot_S32x512x512_S32x512x256_S32x512x256_2_1_1_2_0_0.rhsIdx i q 2).val = (i 2).val := by
  unfold DotDims.rhsIdx
  rw [dif_neg (show ¬(2 : Fin S32x512x256.rank) ∈ dot_S32x512x512_S32x512x256_S32x512x256_2_1_1_2_0_0.rhsBatch by decide), dif_pos (show (2 : Fin S32x512x256.rank) ∈ dot_S32x512x512_S32x512x256_S32x512x256_2_1_1_2_0_0.rhsNonContracting by decide)]
  rfl

/-- The batched A·Y at (b, s, d): the sum over k of A(b, s, k)·Y(b, k, d). -/
theorem dotA_apply (L : FVec Ideal S32x512x512 .f32) (R : FVec Ideal S32x512x256 .f32) (b : Fin 32) (s : Fin 512) (d : Fin 256) :
    Host.dotGeneral dot_S32x512x512_S32x512x256_S32x512x256_2_1_1_2_0_0 none L R (ix3 b s d)
      = ∑ k : Fin 512, L (ix3 b s k) * R (ix3 b k d) := by
  simp only [Host.dotGeneral]
  rw [Ideal.dotGeneral_apply]
  rw [← Equiv.sum_comp (contrEquiv1 dot_S32x512x512_S32x512x256_S32x512x256_2_1_1_2_0_0 512 rfl rfl).symm]
  refine Finset.sum_congr rfl fun k _ => ?_
  have hk := contrEquiv1_symm_val dot_S32x512x512_S32x512x256_S32x512x256_2_1_1_2_0_0 512 rfl rfl k
  have el : dot_S32x512x512_S32x512x256_S32x512x256_2_1_1_2_0_0.lhsIdx (ix3 b s d) ((contrEquiv1 dot_S32x512x512_S32x512x256_S32x512x256_2_1_1_2_0_0 512 rfl rfl).symm k) = ix3 b s k := funext fun a => Fin.ext (by
    match a with
    | ⟨0, _⟩ => exact dotA_apply_l0 _ _
    | ⟨1, _⟩ => exact dotA_apply_l1 _ _
    | ⟨2, _⟩ => exact (dotA_apply_l2 _ _).trans hk)
  have er : dot_S32x512x512_S32x512x256_S32x512x256_2_1_1_2_0_0.rhsIdx (ix3 b s d) ((contrEquiv1 dot_S32x512x512_S32x512x256_S32x512x256_2_1_1_2_0_0 512 rfl rfl).symm k) = ix3 b k d := funext fun a => Fin.ext (by
    match a with
    | ⟨0, _⟩ => exact dotA_apply_r0 _ _
    | ⟨1, _⟩ => exact (dotA_apply_r1 _ _).trans hk
    | ⟨2, _⟩ => exact dotA_apply_r2 _ _)
  rw [el, er]

private theorem dotW_apply_l0 (i : S32x512x256.Idx) (q : dot_S32x512x256_S256x256_S32x512x256_2_1_01_0_n_n.contr.Idx) :
    (dot_S32x512x256_S256x256_S32x512x256_2_1_01_0_n_n.lhsIdx i q 0).val = (i 0).val := by
  unfold DotDims.lhsIdx
  rw [dif_neg (show ¬(0 : Fin S32x512x256.rank) ∈ dot_S32x512x256_S256x256_S32x512x256_2_1_01_0_n_n.lhsBatch by decide), dif_pos (show (0 : Fin S32x512x256.rank) ∈ dot_S32x512x256_S256x256_S32x512x256_2_1_01_0_n_n.lhsNonContracting by decide)]
  rfl
private theorem dotW_apply_l1 (i : S32x512x256.Idx) (q : dot_S32x512x256_S256x256_S32x512x256_2_1_01_0_n_n.contr.Idx) :
    (dot_S32x512x256_S256x256_S32x512x256_2_1_01_0_n_n.lhsIdx i q 1).val = (i 1).val := by
  unfold DotDims.lhsIdx
  rw [dif_neg (show ¬(1 : Fin S32x512x256.rank) ∈ dot_S32x512x256_S256x256_S32x512x256_2_1_01_0_n_n.lhsBatch by decide), dif_pos (show (1 : Fin S32x512x256.rank) ∈ dot_S32x512x256_S256x256_S32x512x256_2_1_01_0_n_n.lhsNonContracting by decide)]
  rfl
private theorem dotW_apply_l2 (i : S32x512x256.Idx) (q : dot_S32x512x256_S256x256_S32x512x256_2_1_01_0_n_n.contr.Idx) :
    (dot_S32x512x256_S256x256_S32x512x256_2_1_01_0_n_n.lhsIdx i q 2).val = (q ⟨0, by decide⟩).val :=
  dot_S32x512x256_S256x256_S32x512x256_2_1_01_0_n_n.lhsIdx_val_of_single rfl i q
private theorem dotW_apply_r0 (i : S32x512x256.Idx) (q : dot_S32x512x256_S256x256_S32x512x256_2_1_01_0_n_n.contr.Idx) :
    (dot_S32x512x256_S256x256_S32x512x256_2_1_01_0_n_n.rhsIdx i q 0).val = (i 2).val := by
  unfold DotDims.rhsIdx
  rw [dif_neg (show ¬(0 : Fin S256x256.rank) ∈ dot_S32x512x256_S256x256_S32x512x256_2_1_01_0_n_n.rhsBatch by decide), dif_pos (show (0 : Fin S256x256.rank) ∈ dot_S32x512x256_S256x256_S32x512x256_2_1_01_0_n_n.rhsNonContracting by decide)]
  rfl
private theorem dotW_apply_r1 (i : S32x512x256.Idx) (q : dot_S32x512x256_S256x256_S32x512x256_2_1_01_0_n_n.contr.Idx) :
    (dot_S32x512x256_S256x256_S32x512x256_2_1_01_0_n_n.rhsIdx i q 1).val = (q ⟨0, by decide⟩).val :=
  dot_S32x512x256_S256x256_S32x512x256_2_1_01_0_n_n.rhsIdx_val_of_single rfl i q

/-- Z·Wᵀ at (b, s, e): the sum over k of Z(b, s, k)·W(e, k). -/
theorem dotW_apply (L : FVec Ideal S32x512x256 .f32) (R : FVec Ideal S256x256 .f32) (b : Fin 32) (s : Fin 512) (e : Fin 256) :
    Host.dotGeneral dot_S32x512x256_S256x256_S32x512x256_2_1_01_0_n_n none L R (ix3 b s e)
      = ∑ k : Fin 256, L (ix3 b s k) * R (ix2 e k) := by
  simp only [Host.dotGeneral]
  rw [Ideal.dotGeneral_apply]
  rw [← Equiv.sum_comp (contrEquiv1 dot_S32x512x256_S256x256_S32x512x256_2_1_01_0_n_n 256 rfl rfl).symm]
  refine Finset.sum_congr rfl fun k _ => ?_
  have hk := contrEquiv1_symm_val dot_S32x512x256_S256x256_S32x512x256_2_1_01_0_n_n 256 rfl rfl k
  have el : dot_S32x512x256_S256x256_S32x512x256_2_1_01_0_n_n.lhsIdx (ix3 b s e) ((contrEquiv1 dot_S32x512x256_S256x256_S32x512x256_2_1_01_0_n_n 256 rfl rfl).symm k) = ix3 b s k := funext fun a => Fin.ext (by
    match a with
    | ⟨0, _⟩ => exact dotW_apply_l0 _ _
    | ⟨1, _⟩ => exact dotW_apply_l1 _ _
    | ⟨2, _⟩ => exact (dotW_apply_l2 _ _).trans hk)
  have er : dot_S32x512x256_S256x256_S32x512x256_2_1_01_0_n_n.rhsIdx (ix3 b s e) ((contrEquiv1 dot_S32x512x256_S256x256_S32x512x256_2_1_01_0_n_n 256 rfl rfl).symm k) = ix2 e k := funext fun a => Fin.ext (by
    match a with
    | ⟨0, _⟩ => exact dotW_apply_r0 _ _
    | ⟨1, _⟩ => exact (dotW_apply_r1 _ _).trans hk)
  rw [el, er]

private theorem dotO_apply_l0 (i : S32x512x256.Idx) (q : dot_S32x512x1536_S256x1536_S32x512x256_2_1_01_0_n_n.contr.Idx) :
    (dot_S32x512x1536_S256x1536_S32x512x256_2_1_01_0_n_n.lhsIdx i q 0).val = (i 0).val := by
  unfold DotDims.lhsIdx
  rw [dif_neg (show ¬(0 : Fin S32x512x1536.rank) ∈ dot_S32x512x1536_S256x1536_S32x512x256_2_1_01_0_n_n.lhsBatch by decide), dif_pos (show (0 : Fin S32x512x1536.rank) ∈ dot_S32x512x1536_S256x1536_S32x512x256_2_1_01_0_n_n.lhsNonContracting by decide)]
  rfl
private theorem dotO_apply_l1 (i : S32x512x256.Idx) (q : dot_S32x512x1536_S256x1536_S32x512x256_2_1_01_0_n_n.contr.Idx) :
    (dot_S32x512x1536_S256x1536_S32x512x256_2_1_01_0_n_n.lhsIdx i q 1).val = (i 1).val := by
  unfold DotDims.lhsIdx
  rw [dif_neg (show ¬(1 : Fin S32x512x1536.rank) ∈ dot_S32x512x1536_S256x1536_S32x512x256_2_1_01_0_n_n.lhsBatch by decide), dif_pos (show (1 : Fin S32x512x1536.rank) ∈ dot_S32x512x1536_S256x1536_S32x512x256_2_1_01_0_n_n.lhsNonContracting by decide)]
  rfl
private theorem dotO_apply_l2 (i : S32x512x256.Idx) (q : dot_S32x512x1536_S256x1536_S32x512x256_2_1_01_0_n_n.contr.Idx) :
    (dot_S32x512x1536_S256x1536_S32x512x256_2_1_01_0_n_n.lhsIdx i q 2).val = (q ⟨0, by decide⟩).val :=
  dot_S32x512x1536_S256x1536_S32x512x256_2_1_01_0_n_n.lhsIdx_val_of_single rfl i q
private theorem dotO_apply_r0 (i : S32x512x256.Idx) (q : dot_S32x512x1536_S256x1536_S32x512x256_2_1_01_0_n_n.contr.Idx) :
    (dot_S32x512x1536_S256x1536_S32x512x256_2_1_01_0_n_n.rhsIdx i q 0).val = (i 2).val := by
  unfold DotDims.rhsIdx
  rw [dif_neg (show ¬(0 : Fin S256x1536.rank) ∈ dot_S32x512x1536_S256x1536_S32x512x256_2_1_01_0_n_n.rhsBatch by decide), dif_pos (show (0 : Fin S256x1536.rank) ∈ dot_S32x512x1536_S256x1536_S32x512x256_2_1_01_0_n_n.rhsNonContracting by decide)]
  rfl
private theorem dotO_apply_r1 (i : S32x512x256.Idx) (q : dot_S32x512x1536_S256x1536_S32x512x256_2_1_01_0_n_n.contr.Idx) :
    (dot_S32x512x1536_S256x1536_S32x512x256_2_1_01_0_n_n.rhsIdx i q 1).val = (q ⟨0, by decide⟩).val :=
  dot_S32x512x1536_S256x1536_S32x512x256_2_1_01_0_n_n.rhsIdx_val_of_single rfl i q

/-- F·W_outᵀ at (b, s, e): the sum over the 1536 joined features k of F(b, s, k)·W_out(e, k). -/
theorem dotO_apply (L : FVec Ideal S32x512x1536 .f32) (R : FVec Ideal S256x1536 .f32) (b : Fin 32) (s : Fin 512) (e : Fin 256) :
    Host.dotGeneral dot_S32x512x1536_S256x1536_S32x512x256_2_1_01_0_n_n none L R (ix3 b s e)
      = ∑ k : Fin 1536, L (ix3 b s k) * R (ix2 e k) := by
  simp only [Host.dotGeneral]
  rw [Ideal.dotGeneral_apply]
  rw [← Equiv.sum_comp (contrEquiv1 dot_S32x512x1536_S256x1536_S32x512x256_2_1_01_0_n_n 1536 rfl rfl).symm]
  refine Finset.sum_congr rfl fun k _ => ?_
  have hk := contrEquiv1_symm_val dot_S32x512x1536_S256x1536_S32x512x256_2_1_01_0_n_n 1536 rfl rfl k
  have el : dot_S32x512x1536_S256x1536_S32x512x256_2_1_01_0_n_n.lhsIdx (ix3 b s e) ((contrEquiv1 dot_S32x512x1536_S256x1536_S32x512x256_2_1_01_0_n_n 1536 rfl rfl).symm k) = ix3 b s k := funext fun a => Fin.ext (by
    match a with
    | ⟨0, _⟩ => exact dotO_apply_l0 _ _
    | ⟨1, _⟩ => exact dotO_apply_l1 _ _
    | ⟨2, _⟩ => exact (dotO_apply_l2 _ _).trans hk)
  have er : dot_S32x512x1536_S256x1536_S32x512x256_2_1_01_0_n_n.rhsIdx (ix3 b s e) ((contrEquiv1 dot_S32x512x1536_S256x1536_S32x512x256_2_1_01_0_n_n 1536 rfl rfl).symm k) = ix2 e k := funext fun a => Fin.ext (by
    match a with
    | ⟨0, _⟩ => exact dotO_apply_r0 _ _
    | ⟨1, _⟩ => exact (dotO_apply_r1 _ _).trans hk)
  rw [el, er]

/-! ## Spreading over batch, rows and features -/

/-- A scalar spread over [32, 512, 256] reads the scalar. -/
theorem scalarSpread_apply {α : Type} (v : S_.Idx → α) (i : S32x512x256.Idx) :
    broadcastInDim S32x512x256 ![] bcast_S_S32x512x256 v i = v ix0 :=
  broadcastInDim_apply _ bcast_S_S32x512x256 v i ix0 (fun a => a.elim0)

/-- A scalar spread over a 256-vector reads the scalar. -/
theorem scalarVec_apply {α : Type} (v : S_.Idx → α) (i : S256.Idx) :
    broadcastInDim S256 ![] bcast_S_S256 v i = v ix0 :=
  broadcastInDim_apply _ bcast_S_S256 v i ix0 (fun a => a.elim0)

/-- A scalar spread over [32, 512, 1] reads the scalar. -/
theorem scalarCol_apply {α : Type} (v : S_.Idx → α) (i : S32x512x1.Idx) :
    broadcastInDim S32x512x1 ![] bcast_S_S32x512x1 v i = v ix0 :=
  broadcastInDim_apply _ bcast_S_S32x512x1 v i ix0 (fun a => a.elim0)

/-- A [32, 512] array as a [32, 512, 1] array reads, at (b, s, z), the array at (b, s). -/
theorem keepCol_apply {α : Type} (v : S32x512.Idx → α) (b : Fin 32) (s : Fin 512) (z : Fin 1) :
    broadcastInDim S32x512x1 ![0, 1] bcast_S32x512_S32x512x1_0_1 v (ix3 b s z) = v (ix2 b s) :=
  broadcastInDim_apply _ bcast_S32x512_S32x512x1_0_1 v (ix3 b s z) (ix2 b s) (fun a => by
    match a with
    | ⟨0, _⟩ => show b.val = if (32 : Nat) = 1 then 0 else b.val; rw [if_neg (by decide)]
    | ⟨1, _⟩ => show s.val = if (512 : Nat) = 1 then 0 else s.val; rw [if_neg (by decide)])

/-- A 256-vector as a [1, 1, 256] array reads, at (0, 0, e), the vector at e. -/
theorem vec11_apply {α : Type} (v : S256.Idx → α) (u u' : Fin 1) (e : Fin 256) :
    broadcastInDim S1x1x256 ![2] bcast_S256_S1x1x256_2 v (ix3 u u' e) = v (ix1 e) :=
  broadcastInDim_apply _ bcast_S256_S1x1x256_2 v (ix3 u u' e) (ix1 e) (fun a => by
    match a with
    | ⟨0, _⟩ => show e.val = if (256 : Nat) = 1 then 0 else e.val; rw [if_neg (by decide)])

/-- A [1, 1, 256] array spread over batch and rows reads, at (b, s, e), the array at (0, 0, e). -/
theorem rowSpread3_apply {α : Type} (v : S1x1x256.Idx → α) (b : Fin 32) (s : Fin 512) (e : Fin 256) :
    broadcastInDim S32x512x256 ![0, 1, 2] bcast_S1x1x256_S32x512x256_0_1_2 v (ix3 b s e) = v (ix3 (0 : Fin 1) (0 : Fin 1) e) :=
  broadcastInDim_apply _ bcast_S1x1x256_S32x512x256_0_1_2 v (ix3 b s e) (ix3 (0 : Fin 1) (0 : Fin 1) e) (fun a => by
    match a with
    | ⟨0, _⟩ => rfl
    | ⟨1, _⟩ => rfl
    | ⟨2, _⟩ => show e.val = if (256 : Nat) = 1 then 0 else e.val; rw [if_neg (by decide)])

/-- A [32, 512, 1] array spread over the features reads, at (b, s, e), the array at (b, s, 0). -/
theorem colSpread_apply {α : Type} (v : S32x512x1.Idx → α) (b : Fin 32) (s : Fin 512) (e : Fin 256) :
    broadcastInDim S32x512x256 ![0, 1, 2] bcast_S32x512x1_S32x512x256_0_1_2 v (ix3 b s e) = v (ix3 b s (0 : Fin 1)) :=
  broadcastInDim_apply _ bcast_S32x512x1_S32x512x256_0_1_2 v (ix3 b s e) (ix3 b s (0 : Fin 1)) (fun a => by
    match a with
    | ⟨0, _⟩ => show b.val = if (32 : Nat) = 1 then 0 else b.val; rw [if_neg (by decide)]
    | ⟨1, _⟩ => show s.val = if (512 : Nat) = 1 then 0 else s.val; rw [if_neg (by decide)]
    | ⟨2, _⟩ => rfl)

/-- The host's quotient, entry by entry. -/
theorem hostDivf_apply {s : Shape} (x y : FVec Ideal s .f32) (i : s.Idx) : Host.divf x y i = Ideal.div (x i) (y i) := rfl

/-! ## The normalizer -/

/-- The row sums of A from the zero word, as a [32, 512] array. -/
theorem rowSum_apply (A3 : FVec Ideal S32x512x512 .f32) (b : Fin 32) (s : Fin 512) :
    Host.reduceAdd A3 (constant S_ .f32 0x00000000#32) reducesTo_S32x512x512_S32x512_d2 h_S_ (ix2 b s)
      = ∑ t : Fin 512, A3 (ix3 b s t) := by
  simp only [Host.reduceAdd, Ideal.hostReduceAdd_def]
  rw [Ideal.hostReduceAdd_single reducesTo_S32x512x512_S32x512_d2 (by decide)]
  show Ideal.ofBits .f32 0x00000000#32 + _ = _
  rw [Ideal.ofBits_zero_f32, zero_add]
  refine Finset.sum_congr rfl fun k _ => congrArg A3 (funext fun a => Fin.ext (by
    match a with
    | ⟨0, _⟩ => rfl
    | ⟨1, _⟩ => rfl
    | ⟨2, _⟩ => rfl))

/-- (0 + rowsum(A)) + 1 as a [32, 512, 1] array. -/
def den (A3 : FVec Ideal S32x512x512 .f32) : FVec Ideal S32x512x1 .f32 :=
  addf (broadcastInDim S32x512x1 ![0, 1] bcast_S32x512_S32x512x1_0_1
      (Host.reduceAdd A3 (constant S_ .f32 0x00000000#32) reducesTo_S32x512x512_S32x512_d2 h_S_))
    (broadcastInDim S32x512x1 ![] bcast_S_S32x512x1 (constant S_ .f32 0x3F800000#32))

theorem den_apply (A3 : FVec Ideal S32x512x512 .f32) (b : Fin 32) (s : Fin 512) (z : Fin 1) :
    den A3 (ix3 b s z) = Gcn.denomAt (fun s t => A3 (ix3 b s t)) s := by
  unfold den
  rw [addf_apply, keepCol_apply, scalarCol_apply, rowSum_apply]
  rfl

/-! ## One layer -/

/-- The layer as the reference spells it. -/
def layer (A3 : FVec Ideal S32x512x512 .f32) (Y3 : FVec Ideal S32x512x256 .f32) (W : FVec Ideal S256x256 .f32)
    (bv : FVec Ideal S256 .f32) (dn : FVec Ideal S32x512x1 .f32) : FVec Ideal S32x512x256 .f32 :=
  maximumf
    (Host.divf
      (addf
        (Host.dotGeneral dot_S32x512x256_S256x256_S32x512x256_2_1_01_0_n_n none
          (addf (Host.dotGeneral dot_S32x512x512_S32x512x256_S32x512x256_2_1_1_2_0_0 none A3 Y3) Y3) W)
        (broadcastInDim S32x512x256 ![0, 1, 2] bcast_S1x1x256_S32x512x256_0_1_2
          (broadcastInDim S1x1x256 ![2] bcast_S256_S1x1x256_2
            (mulf (broadcastInDim S256 ![] bcast_S_S256 (constant S_ .f32 0x40000000#32)) bv))))
      (broadcastInDim S32x512x256 ![0, 1, 2] bcast_S32x512x1_S32x512x256_0_1_2 dn))
    (broadcastInDim S32x512x256 ![] bcast_S_S32x512x256 (constant S_ .f32 0x00000000#32))

theorem layer_apply (A3 : FVec Ideal S32x512x512 .f32) (Y3 : FVec Ideal S32x512x256 .f32) (W : FVec Ideal S256x256 .f32)
    (bv : FVec Ideal S256 .f32) (dn : FVec Ideal S32x512x1 .f32) (b : Fin 32) (s : Fin 512) (e : Fin 256) :
    layer A3 Y3 W bv dn (ix3 b s e)
      = max (Ideal.div ((∑ d : Fin 256, ((∑ t : Fin 512, A3 (ix3 b s t) * Y3 (ix3 b t d)) + Y3 (ix3 b s d)) * W (ix2 e d))
          + Gcn.twoW * bv (ix1 e)) (dn (ix3 b s (0 : Fin 1)))) Gcn.zeroW := by
  unfold layer
  rw [maximumf_apply, hostDivf_apply, addf_apply, dotW_apply, rowSpread3_apply, vec11_apply, mulf_apply, scalarVec_apply,
    colSpread_apply, scalarSpread_apply]
  simp only [addf_apply, dotA_apply]
  rfl

theorem layer_eq (A3 : FVec Ideal S32x512x512 .f32) (Y3 : FVec Ideal S32x512x256 .f32) (W : FVec Ideal S256x256 .f32)
    (bv : FVec Ideal S256 .f32) (b : Fin 32) (s : Fin 512) (e : Fin 256) :
    layer A3 Y3 W bv (den A3) (ix3 b s e)
      = Gcn.layerAt (fun s t => A3 (ix3 b s t)) (fun t d => Y3 (ix3 b t d)) (fun e d => W (ix2 e d)) (fun e => bv (ix1 e)) s e := by
  rw [layer_apply, den_apply]
  rfl

/-! ## The output projection -/

def project (X3 : FVec Ideal S32x512x256 .f32) (F3 : FVec Ideal S32x512x1536 .f32) (Wout : FVec Ideal S256x1536 .f32)
    (bout : FVec Ideal S256 .f32) : FVec Ideal S32x512x256 .f32 :=
  addf X3
    (addf (Host.dotGeneral dot_S32x512x1536_S256x1536_S32x512x256_2_1_01_0_n_n none F3 Wout)
      (broadcastInDim S32x512x256 ![0, 1, 2] bcast_S1x1x256_S32x512x256_0_1_2
        (broadcastInDim S1x1x256 ![2] bcast_S256_S1x1x256_2 bout)))

theorem project_apply (X3 : FVec Ideal S32x512x256 .f32) (F3 : FVec Ideal S32x512x1536 .f32) (Wout : FVec Ideal S256x1536 .f32)
    (bout : FVec Ideal S256 .f32) (b : Fin 32) (s : Fin 512) (e : Fin 256) :
    project X3 F3 Wout bout (ix3 b s e)
      = Gcn.resultAt (fun s e => X3 (ix3 b s e)) (fun s f => F3 (ix3 b s f)) (fun e f => Wout (ix2 e f))
          (fun e => bout (ix1 e)) s e := by
  unfold project
  rw [addf_apply, addf_apply, dotO_apply, rowSpread3_apply, vec11_apply]
  rfl

end Cert.ReferenceIdeal.Ref

end
-- ==== Proof.RefValue.lean ====
/-
  The reference's result array is the specification's, entry by entry.

  The reference takes head h's adjacency array as a slice of the [3, 32, 512, 512] argument viewed as [32, 512, 512], and
  the k-th linear map and bias as slices of the [6, 256, 256] and [6, 256] arguments; read at an index these are the
  argument's entries at (h, b, s, t), (k, e, d) and (k, e). Each of its six layer results is then the layer of RefOps on
  those (by unfolding), so the specification's first or second layer of batch element b; the six results joined in pairs
  and the pairs joined are the specification's joined features; and the last step is its result.
-/
import proofs.«146254_j90305982366169_1_alg».proof.Proof.Gen.ReferenceIdeal.Read
import proofs.«146254_j90305982366169_1_alg».proof.Proof.RefOps

noncomputable section

namespace Cert.ReferenceIdeal.RefValue

open Cert.ReferenceIdeal Cert.ReferenceIdeal.Facts₀ Cert.ReferenceIdeal.Read Idealize.ShloMosaic Idealize.ShloMosaic.ValueIdx

variable (x0 : (⟨S3x32x512x512, .f32⟩ : BufTy).Contents (Elt Ideal)) (x1 : (⟨S32x512x256, .f32⟩ : BufTy).Contents (Elt Ideal))
  (x4 : (⟨S6x256x256, .f32⟩ : BufTy).Contents (Elt Ideal)) (x5 : (⟨S6x256, .f32⟩ : BufTy).Contents (Elt Ideal))
  (x6 : (⟨S256x1536, .f32⟩ : BufTy).Contents (Elt Ideal)) (x7 : (⟨S256, .f32⟩ : BufTy).Contents (Elt Ideal))

/-! ## The slices -/

/-- Head 0's adjacency array at (b, s, t) is the argument at (0, b, s, t). -/
theorem adj_0 (b : Fin 32) (s t : Fin 512) : val_main_v1 (F := Ideal) x0 (ix3 b s t) = Gcn.adj x0 0 b s t := by
  rw [val_main_v1_apply, val_main_v0_apply]
  show _ = x0 (ix4 (0 : Fin 3) b s t)
  exact congrArg x0 (funext fun a => Fin.ext (by
    have hb := b.isLt; have hs := s.isLt; have ht := t.isLt
    match a with
    | ⟨0, _⟩ => rfl
    | ⟨1, _⟩ => show ((b.val * 512 + s.val) * 512 + t.val) / 262144 % 32 = b.val; omega
    | ⟨2, _⟩ => show ((b.val * 512 + s.val) * 512 + t.val) / 512 % 512 = s.val; omega
    | ⟨3, _⟩ => show ((b.val * 512 + s.val) * 512 + t.val) % 512 = t.val; omega))

/-- Head 1's adjacency array at (b, s, t) is the argument at (1, b, s, t). -/
theorem adj_1 (b : Fin 32) (s t : Fin 512) : val_main_v38 (F := Ideal) x0 (ix3 b s t) = Gcn.adj x0 1 b s t := by
  rw [val_main_v38_apply, val_main_v37_apply]
  show _ = x0 (ix4 (1 : Fin 3) b s t)
  exact congrArg x0 (funext fun a => Fin.ext (by
    have hb := b.isLt; have hs := s.isLt; have ht := t.isLt
    match a with
    | ⟨0, _⟩ => rfl
    | ⟨1, _⟩ => show ((b.val * 512 + s.val) * 512 + t.val) / 262144 % 32 = b.val; omega
    | ⟨2, _⟩ => show ((b.val * 512 + s.val) * 512 + t.val) / 512 % 512 = s.val; omega
    | ⟨3, _⟩ => show ((b.val * 512 + s.val) * 512 + t.val) % 512 = t.val; omega))

/-- Head 2's adjacency array at (b, s, t) is the argument at (2, b, s, t). -/
theorem adj_2 (b : Fin 32) (s t : Fin 512) : val_main_v75 (F := Ideal) x0 (ix3 b s t) = Gcn.adj x0 2 b s t := by
  rw [val_main_v75_apply, val_main_v74_apply]
  show _ = x0 (ix4 (2 : Fin 3) b s t)
  exact congrArg x0 (funext fun a => Fin.ext (by
    have hb := b.isLt; have hs := s.isLt; have ht := t.isLt
    match a with
    | ⟨0, _⟩ => rfl
    | ⟨1, _⟩ => show ((b.val * 512 + s.val) * 512 + t.val) / 262144 % 32 = b.val; omega
    | ⟨2, _⟩ => show ((b.val * 512 + s.val) * 512 + t.val) / 512 % 512 = s.val; omega
    | ⟨3, _⟩ => show ((b.val * 512 + s.val) * 512 + t.val) % 512 = t.val; omega))

/-- The 0-th linear map at (e, d) is the argument at (0, e, d). -/
theorem lin_0 (e d : Fin 256) : val_main_v9 (F := Ideal) x4 (ix2 e d) = Gcn.lin x4 0 e d := by
  rw [val_main_v9_apply, val_main_v8_apply]
  show _ = x4 (ix3 (0 : Fin 6) e d)
  exact congrArg x4 (funext fun a => Fin.ext (by
    have he := e.isLt; have hd := d.isLt
    match a with
    | ⟨0, _⟩ => rfl
    | ⟨1, _⟩ => show (e.val * 256 + d.val) / 256 % 256 = e.val; omega
    | ⟨2, _⟩ => show (e.val * 256 + d.val) % 256 = d.val; omega))

/-- The 1-th linear map at (e, d) is the argument at (1, e, d). -/
theorem lin_1 (e d : Fin 256) : val_main_v24 (F := Ideal) x4 (ix2 e d) = Gcn.lin x4 1 e d := by
  rw [val_main_v24_apply, val_main_v23_apply]
  show _ = x4 (ix3 (1 : Fin 6) e d)
  exact congrArg x4 (funext fun a => Fin.ext (by
    have he := e.isLt; have hd := d.isLt
    match a with
    | ⟨0, _⟩ => rfl
    | ⟨1, _⟩ => show (e.val * 256 + d.val) / 256 % 256 = e.val; omega
    | ⟨2, _⟩ => show (e.val * 256 + d.val) % 256 = d.val; omega))

/-- The 2-th linear map at (e, d) is the argument at (2, e, d). -/
theorem lin_2 (e d : Fin 256) : val_main_v46 (F := Ideal) x4 (ix2 e d) = Gcn.lin x4 2 e d := by
  rw [val_main_v46_apply, val_main_v45_apply]
  show _ = x4 (ix3 (2 : Fin 6) e d)
  exact congrArg x4 (funext fun a => Fin.ext (by
    have he := e.isLt; have hd := d.isLt
    match a with
    | ⟨0, _⟩ => rfl
    | ⟨1, _⟩ => show (e.val * 256 + d.val) / 256 % 256 = e.val; omega
    | ⟨2, _⟩ => show (e.val * 256 + d.val) % 256 = d.val; omega))

/-- The 3-th linear map at (e, d) is the argument at (3, e, d). -/
theorem lin_3 (e d : Fin 256) : val_main_v61 (F := Ideal) x4 (ix2 e d) = Gcn.lin x4 3 e d := by
  rw [val_main_v61_apply, val_main_v60_apply]
  show _ = x4 (ix3 (3 : Fin 6) e d)
  exact congrArg x4 (funext fun a => Fin.ext (by
    have he := e.isLt; have hd := d.isLt
    match a with
    | ⟨0, _⟩ => rfl
    | ⟨1, _⟩ => show (e.val * 256 + d.val) / 256 % 256 = e.val; omega
    | ⟨2, _⟩ => show (e.val * 256 + d.val) % 256 = d.val; omega))

/-- The 4-th linear map at (e, d) is the argument at (4, e, d). -/
theorem lin_4 (e d : Fin 256) : val_main_v83 (F := Ideal) x4 (ix2 e d) = Gcn.lin x4 4 e d := by
  rw [val_main_v83_apply, val_main_v82_apply]
  show _ = x4 (ix3 (4 : Fin 6) e d)
  exact congrArg x4 (funext fun a => Fin.ext (by
    have he := e.isLt; have hd := d.isLt
    match a with
    | ⟨0, _⟩ => rfl
    | ⟨1, _⟩ => show (e.val * 256 + d.val) / 256 % 256 = e.val; omega
    | ⟨2, _⟩ => show (e.val * 256 + d.val) % 256 = d.val; omega))

/-- The 5-th linear map at (e, d) is the argument at (5, e, d). -/
theorem lin_5 (e d : Fin 256) : val_main_v98 (F := Ideal) x4 (ix2 e d) = Gcn.lin x4 5 e d := by
  rw [val_main_v98_apply, val_main_v97_apply]
  show _ = x4 (ix3 (5 : Fin 6) e d)
  exact congrArg x4 (funext fun a => Fin.ext (by
    have he := e.isLt; have hd := d.isLt
    match a with
    | ⟨0, _⟩ => rfl
    | ⟨1, _⟩ => show (e.val * 256 + d.val) / 256 % 256 = e.val; omega
    | ⟨2, _⟩ => show (e.val * 256 + d.val) % 256 = d.val; omega))

/-- The 0-th bias at e is the argument at (0, e). -/
theorem bias_0 (e : Fin 256) : val_main_v12 (F := Ideal) x5 (ix1 e) = Gcn.bias x5 0 e := by
  rw [val_main_v12_apply, val_main_v11_apply]
  show _ = x5 (ix2 (0 : Fin 6) e)
  exact congrArg x5 (funext fun a => Fin.ext (by
    have he := e.isLt
    match a with
    | ⟨0, _⟩ => rfl
    | ⟨1, _⟩ => show e.val % 256 = e.val; omega))

/-- The 1-th bias at e is the argument at (1, e). -/
theorem bias_1 (e : Fin 256) : val_main_v27 (F := Ideal) x5 (ix1 e) = Gcn.bias x5 1 e := by
  rw [val_main_v27_apply, val_main_v26_apply]
  show _ = x5 (ix2 (1 : Fin 6) e)
  exact congrArg x5 (funext fun a => Fin.ext (by
    have he := e.isLt
    match a with
    | ⟨0, _⟩ => rfl
    | ⟨1, _⟩ => show e.val % 256 = e.val; omega))

/-- The 2-th bias at e is the argument at (2, e). -/
theorem bias_2 (e : Fin 256) : val_main_v49 (F := Ideal) x5 (ix1 e) = Gcn.bias x5 2 e := by
  rw [val_main_v49_apply, val_main_v48_apply]
  show _ = x5 (ix2 (2 : Fin 6) e)
  exact congrArg x5 (funext fun a => Fin.ext (by
    have he := e.isLt
    match a with
    | ⟨0, _⟩ => rfl
    | ⟨1, _⟩ => show e.val % 256 = e.val; omega))

/-- The 3-th bias at e is the argument at (3, e). -/
theorem bias_3 (e : Fin 256) : val_main_v64 (F := Ideal) x5 (ix1 e) = Gcn.bias x5 3 e := by
  rw [val_main_v64_apply, val_main_v63_apply]
  show _ = x5 (ix2 (3 : Fin 6) e)
  exact congrArg x5 (funext fun a => Fin.ext (by
    have he := e.isLt
    match a with
    | ⟨0, _⟩ => rfl
    | ⟨1, _⟩ => show e.val % 256 = e.val; omega))

/-- The 4-th bias at e is the argument at (4, e). -/
theorem bias_4 (e : Fin 256) : val_main_v86 (F := Ideal) x5 (ix1 e) = Gcn.bias x5 4 e := by
  rw [val_main_v86_apply, val_main_v85_apply]
  show _ = x5 (ix2 (4 : Fin 6) e)
  exact congrArg x5 (funext fun a => Fin.ext (by
    have he := e.isLt
    match a with
    | ⟨0, _⟩ => rfl
    | ⟨1, _⟩ => show e.val % 256 = e.val; omega))

/-- The 5-th bias at e is the argument at (5, e). -/
theorem bias_5 (e : Fin 256) : val_main_v101 (F := Ideal) x5 (ix1 e) = Gcn.bias x5 5 e := by
  rw [val_main_v101_apply, val_main_v100_apply]
  show _ = x5 (ix2 (5 : Fin 6) e)
  exact congrArg x5 (funext fun a => Fin.ext (by
    have he := e.isLt
    match a with
    | ⟨0, _⟩ => rfl
    | ⟨1, _⟩ => show e.val % 256 = e.val; omega))

/-! ## The six layers -/

theorem is_v20 : val_main_v20 (F := Ideal) x0 x1 x4 x5
    = Ref.layer (val_main_v1 (F := Ideal) x0) x1 (val_main_v9 (F := Ideal) x4) (val_main_v12 (F := Ideal) x5)
        (Ref.den (val_main_v1 (F := Ideal) x0)) := rfl

theorem at_v20 (b : Fin 32) (s : Fin 512) (e : Fin 256) :
    val_main_v20 (F := Ideal) x0 x1 x4 x5 (ix3 b s e) = Gcn.first x0 x1 x4 x5 0 0 b s e := by
  rw [is_v20, Ref.layer_eq]
  simp only [adj_0, lin_0, bias_0]
  rfl

theorem is_v35 : val_main_v35 (F := Ideal) x0 x1 x4 x5
    = Ref.layer (val_main_v1 (F := Ideal) x0) (val_main_v20 (F := Ideal) x0 x1 x4 x5) (val_main_v24 (F := Ideal) x4) (val_main_v27 (F := Ideal) x5)
        (Ref.den (val_main_v1 (F := Ideal) x0)) := rfl

theorem at_v35 (b : Fin 32) (s : Fin 512) (e : Fin 256) :
    val_main_v35 (F := Ideal) x0 x1 x4 x5 (ix3 b s e) = Gcn.second x0 x1 x4 x5 0 0 1 b s e := by
  rw [is_v35, Ref.layer_eq]
  simp only [adj_0, lin_1, bias_1, at_v20]
  rfl

theorem is_v57 : val_main_v57 (F := Ideal) x0 x1 x4 x5
    = Ref.layer (val_main_v38 (F := Ideal) x0) x1 (val_main_v46 (F := Ideal) x4) (val_main_v49 (F := Ideal) x5)
        (Ref.den (val_main_v38 (F := Ideal) x0)) := rfl

theorem at_v57 (b : Fin 32) (s : Fin 512) (e : Fin 256) :
    val_main_v57 (F := Ideal) x0 x1 x4 x5 (ix3 b s e) = Gcn.first x0 x1 x4 x5 1 2 b s e := by
  rw [is_v57, Ref.layer_eq]
  simp only [adj_1, lin_2, bias_2]
  rfl

theorem is_v72 : val_main_v72 (F := Ideal) x0 x1 x4 x5
    = Ref.layer (val_main_v38 (F := Ideal) x0) (val_main_v57 (F := Ideal) x0 x1 x4 x5) (val_main_v61 (F := Ideal) x4) (val_main_v64 (F := Ideal) x5)
        (Ref.den (val_main_v38 (F := Ideal) x0)) := rfl

theorem at_v72 (b : Fin 32) (s : Fin 512) (e : Fin 256) :
    val_main_v72 (F := Ideal) x0 x1 x4 x5 (ix3 b s e) = Gcn.second x0 x1 x4 x5 1 2 3 b s e := by
  rw [is_v72, Ref.layer_eq]
  simp only [adj_1, lin_3, bias_3, at_v57]
  rfl

theorem is_v94 : val_main_v94 (F := Ideal) x0 x1 x4 x5
    = Ref.layer (val_main_v75 (F := Ideal) x0) x1 (val_main_v83 (F := Ideal) x4) (val_main_v86 (F := Ideal) x5)
        (Ref.den (val_main_v75 (F := Ideal) x0)) := rfl

theorem at_v94 (b : Fin 32) (s : Fin 512) (e : Fin 256) :
    val_main_v94 (F := Ideal) x0 x1 x4 x5 (ix3 b s e) = Gcn.first x0 x1 x4 x5 2 4 b s e := by
  rw [is_v94, Ref.layer_eq]
  simp only [adj_2, lin_4, bias_4]
  rfl

theorem is_v109 : val_main_v109 (F := Ideal) x0 x1 x4 x5
    = Ref.layer (val_main_v75 (F := Ideal) x0) (val_main_v94 (F := Ideal) x0 x1 x4 x5) (val_main_v98 (F := Ideal) x4) (val_main_v101 (F := Ideal) x5)
        (Ref.den (val_main_v75 (F := Ideal) x0)) := rfl

theorem at_v109 (b : Fin 32) (s : Fin 512) (e : Fin 256) :
    val_main_v109 (F := Ideal) x0 x1 x4 x5 (ix3 b s e) = Gcn.second x0 x1 x4 x5 2 4 5 b s e := by
  rw [is_v109, Ref.layer_eq]
  simp only [adj_2, lin_5, bias_5, at_v94]
  rfl

/-! ## The joined features -/

section cat

variable (a0 a1 : FVec Ideal S32x512x256 .f32) (u0 u1 u2 : FVec Ideal S32x512x512 .f32) (b : Fin 32) (s : Fin 512)

/-- Two [32, 512, 256] arrays joined along the features: columns 0 … 255 are the first's, -/
theorem cat2_lo (g : Fin 512) (h : g.val < 256) :
    concatenate S32x512x512 2 [⟨S32x512x256, a0⟩, ⟨S32x512x256, a1⟩] concatenates_S32x512x256_S32x512x256_S32x512x512_d2 (ix3 b s g)
      = a0 (ix3 b s ⟨g.val, h⟩) :=
  concatenate_pair_apply_left 2 a0 a1 concatenates_S32x512x256_S32x512x256_S32x512x512_d2 (ix3 b s g) rfl (ix3 b s ⟨g.val, h⟩)
    (fun bb => by match bb with | ⟨0, _⟩ => rfl | ⟨1, _⟩ => rfl | ⟨2, _⟩ => rfl)

/-- and columns 256 … 511 the second's. -/
theorem cat2_hi (g : Fin 512) (h : 256 ≤ g.val) :
    concatenate S32x512x512 2 [⟨S32x512x256, a0⟩, ⟨S32x512x256, a1⟩] concatenates_S32x512x256_S32x512x256_S32x512x512_d2 (ix3 b s g)
      = a1 (ix3 b s ⟨g.val - 256, by have := g.isLt; omega⟩) :=
  concatenate_pair_apply_right 2 a0 a1 concatenates_S32x512x256_S32x512x256_S32x512x512_d2 (ix3 b s g) rfl rfl
    (ix3 b s ⟨g.val - 256, by have := g.isLt; omega⟩)
    (fun bb hb => by match bb with | ⟨0, _⟩ => rfl | ⟨1, _⟩ => rfl | ⟨2, _⟩ => exact absurd rfl hb)
    (by show g.val - 256 + 256 = g.val; omega)

/-- Three [32, 512, 512] arrays joined along the features: columns 0 … 511, -/
theorem cat3_0 (f : Fin 1536) (h : f.val < 512) :
    concatenate S32x512x1536 2 [⟨S32x512x512, u0⟩, ⟨S32x512x512, u1⟩, ⟨S32x512x512, u2⟩]
      concatenates_S32x512x512_S32x512x512_S32x512x512_S32x512x1536_d2 (ix3 b s f) = u0 (ix3 b s ⟨f.val, h⟩) :=
  concatenate_apply_piece 2 [⟨S32x512x512, u0⟩, ⟨S32x512x512, u1⟩, ⟨S32x512x512, u2⟩]
    concatenates_S32x512x512_S32x512x512_S32x512x512_S32x512x1536_d2 (ix3 b s f) 0 (by show 0 < 3; omega)
    S32x512x512 u0 rfl rfl 0 rfl (ix3 b s ⟨f.val, h⟩)
    (fun bb hb => by match bb with | ⟨0, _⟩ => rfl | ⟨1, _⟩ => rfl | ⟨2, _⟩ => exact absurd rfl hb)
    (by show 0 + f.val = f.val; omega)

/-- 512 … 1023, -/
theorem cat3_1 (f : Fin 1536) (hlo : 512 ≤ f.val) (h : f.val < 1024) :
    concatenate S32x512x1536 2 [⟨S32x512x512, u0⟩, ⟨S32x512x512, u1⟩, ⟨S32x512x512, u2⟩]
      concatenates_S32x512x512_S32x512x512_S32x512x512_S32x512x1536_d2 (ix3 b s f) = u1 (ix3 b s ⟨f.val - 512, by omega⟩) :=
  concatenate_apply_piece 2 [⟨S32x512x512, u0⟩, ⟨S32x512x512, u1⟩, ⟨S32x512x512, u2⟩]
    concatenates_S32x512x512_S32x512x512_S32x512x512_S32x512x1536_d2 (ix3 b s f) 1 (by show 1 < 3; omega)
    S32x512x512 u1 rfl rfl 512 rfl (ix3 b s ⟨f.val - 512, by omega⟩)
    (fun bb hb => by match bb with | ⟨0, _⟩ => rfl | ⟨1, _⟩ => rfl | ⟨2, _⟩ => exact absurd rfl hb)
    (by show 512 + (f.val - 512) = f.val; omega)

/-- and 1024 … 1535. -/
theorem cat3_2 (f : Fin 1536) (hlo : 1024 ≤ f.val) :
    concatenate S32x512x1536 2 [⟨S32x512x512, u0⟩, ⟨S32x512x512, u1⟩, ⟨S32x512x512, u2⟩]
      concatenates_S32x512x512_S32x512x512_S32x512x512_S32x512x1536_d2 (ix3 b s f)
      = u2 (ix3 b s ⟨f.val - 1024, by have := f.isLt; omega⟩) :=
  concatenate_apply_piece 2 [⟨S32x512x512, u0⟩, ⟨S32x512x512, u1⟩, ⟨S32x512x512, u2⟩]
    concatenates_S32x512x512_S32x512x512_S32x512x512_S32x512x1536_d2 (ix3 b s f) 2 (by show 2 < 3; omega)
    S32x512x512 u2 rfl rfl 1024 rfl (ix3 b s ⟨f.val - 1024, by have := f.isLt; omega⟩)
    (fun bb hb => by match bb with | ⟨0, _⟩ => rfl | ⟨1, _⟩ => rfl | ⟨2, _⟩ => exact absurd rfl hb)
    (by show 1024 + (f.val - 1024) = f.val; have := f.isLt; omega)

end cat

/-- The six layer results joined are the specification's joined features of batch element b. -/
theorem joined_apply (b : Fin 32) (s : Fin 512) (f : Fin 1536) :
    val_main_v111 (F := Ideal) x0 x1 x4 x5 (ix3 b s f) = Gcn.joined x0 x1 x4 x5 b s f := by
  have hf := f.isLt
  unfold Gcn.joined val_main_v111
  by_cases c1 : f.val < 256
  · rw [Gcn.catAt_0 _ _ _ _ _ _ _ _ c1, cat3_0 _ _ _ b s f (by omega)]
    unfold val_main_v36
    rw [cat2_lo _ _ b s ⟨f.val, by omega⟩ c1, at_v20]
  by_cases c2 : f.val < 512
  · rw [Gcn.catAt_1 _ _ _ _ _ _ _ _ (by omega) c2, cat3_0 _ _ _ b s f (by omega)]
    unfold val_main_v36
    rw [cat2_hi _ _ b s ⟨f.val, by omega⟩ (by show 256 ≤ f.val; omega), at_v35]
  by_cases c3 : f.val < 768
  · rw [Gcn.catAt_2 _ _ _ _ _ _ _ _ (by omega) c3, cat3_1 _ _ _ b s f (by omega) (by omega)]
    unfold val_main_v73
    rw [cat2_lo _ _ b s ⟨f.val - 512, by omega⟩ (by show f.val - 512 < 256; omega), at_v57]
  by_cases c4 : f.val < 1024
  · rw [Gcn.catAt_3 _ _ _ _ _ _ _ _ (by omega) c4, cat3_1 _ _ _ b s f (by omega) (by omega)]
    unfold val_main_v73
    rw [cat2_hi _ _ b s ⟨f.val - 512, by omega⟩ (by show 256 ≤ f.val - 512; omega), at_v72]
    exact congrArg (Gcn.second x0 x1 x4 x5 1 2 3 b s) (Fin.ext (by show f.val - 512 - 256 = f.val - 768; omega))
  by_cases c5 : f.val < 1280
  · rw [Gcn.catAt_4 _ _ _ _ _ _ _ _ (by omega) c5, cat3_2 _ _ _ b s f (by omega)]
    unfold val_main_v110
    rw [cat2_lo _ _ b s ⟨f.val - 1024, by omega⟩ (by show f.val - 1024 < 256; omega), at_v94]
  · rw [Gcn.catAt_5 _ _ _ _ _ _ _ _ (by omega), cat3_2 _ _ _ b s f (by omega)]
    unfold val_main_v110
    rw [cat2_hi _ _ b s ⟨f.val - 1024, by omega⟩ (by show 256 ≤ f.val - 1024; omega), at_v109]
    exact congrArg (Gcn.second x0 x1 x4 x5 2 4 5 b s) (Fin.ext (by show f.val - 1024 - 256 = f.val - 1280; omega))

/-! ## The result -/

theorem is_v116 : val_main_v116 (F := Ideal) x0 x1 x4 x5 x6 x7
    = Ref.project x1 (val_main_v111 (F := Ideal) x0 x1 x4 x5) x6 x7 := rfl

/-- The reference's result array is the specification's `Gcn.G` of the arguments. -/
theorem result_eq : val_main_v116 (F := Ideal) x0 x1 x4 x5 x6 x7 = Gcn.G x0 x1 x4 x5 x6 x7 := by
  funext i
  obtain ⟨b, s, e, rfl⟩ : ∃ (b : Fin 32) (s : Fin 512) (e : Fin 256), i = ix3 b s e := ⟨i 0, i 1, i 2, eq_ix3 i⟩
  rw [is_v116, Ref.project_apply]
  simp only [joined_apply]
  rfl

end Cert.ReferenceIdeal.RefValue

end
-- ==== Proof.lean ====
/-
  A multi-head graph-convolution block, kernel against reference, on the extended reals.

  For each of the 32 batch elements (512 nodes, 256 features) and each of three heads with adjacency matrix A_h, two
  layers are applied in a row, X ↦ relu(((A_h·X + X)·Wᵀ + 2·bias) / (rowsum(A_h) + 1)), the second reading the first's
  result; the six [512, 256] results are joined into [512, 1536] features F, and the block returns X + (F·W_outᵀ + b_out).

  The kernel runs one grid point per batch element: it computes the six layers with matrix products into zero
  accumulators, parks each result in its 256 columns of a scratch array, reads the scratch array back whole for the
  output projection, and writes the batch element's block of the result. The reference does the same on whole batched
  arrays: batched products, host sums, and concatenations of the six results.

  On the extended reals the two are the same function of the arguments, entry by entry (Spec.lean states it:
  `Gcn.G`): a change of float format is the identity, a matrix product into a zero accumulator and a host product are
  the same finite sum, a lane sum from the neutral word and a host sum from the zero word differ by 0 + ·, and both
  sides divide, clamp and add with the same operations in the same order. No rearrangement of a sum against a product
  is needed, so the finiteness of the inputs is never used.

    • KerOps / KerBody / KerValue: the kernel's result array is `Gcn.G` of the arguments (each stretch of the body's
      arithmetic is one layer; the scratch array read back is the six results side by side; point t's block of the
      result is batch element t's; the 32 blocks cover the result).
    • RefOps / RefValue: the reference's result array is `Gcn.G` of the arguments.
    • Here: the three frames (the generated frame runs; for the reference its generated run with the result dropped),
      the idealization's ledger (empty), and the two runs side by side.
-/
import proofs.«146254_j90305982366169_1_alg».proof.Defs
import proofs.«146254_j90305982366169_1_alg».proof.Proof.Gen.Kernel
import proofs.«146254_j90305982366169_1_alg».proof.Proof.Gen.Kernel.Skeleton
import proofs.«146254_j90305982366169_1_alg».proof.Proof.Gen.Kernel.Launch
import proofs.«146254_j90305982366169_1_alg».proof.Proof.Gen.Kernel.Points
import proofs.«146254_j90305982366169_1_alg».proof.Proof.Gen.Kernel.Frame
import proofs.«146254_j90305982366169_1_alg».proof.Proof.Gen.KernelIdeal
import proofs.«146254_j90305982366169_1_alg».proof.Proof.Gen.KernelIdeal.Skeleton
import proofs.«146254_j90305982366169_1_alg».proof.Proof.Gen.KernelIdeal.Launch
import proofs.«146254_j90305982366169_1_alg».proof.Proof.Gen.KernelIdeal.Points
import proofs.«146254_j90305982366169_1_alg».proof.Proof.Gen.KernelIdeal.Frame
import proofs.«146254_j90305982366169_1_alg».proof.Proof.Gen.ReferenceIdeal
import proofs.«146254_j90305982366169_1_alg».proof.Proof.Gen.Pre_finite_inputs
import proofs.«146254_j90305982366169_1_alg».proof.Proof.Gen.KernelIdeal.Value
import proofs.«146254_j90305982366169_1_alg».proof.Proof.Gen.ReferenceIdeal.Run
import proofs.«146254_j90305982366169_1_alg».proof.Proof.Gen.ReferenceIdeal.Read
import proofs.«146254_j90305982366169_1_alg».proof.Proof.KerValue
import proofs.«146254_j90305982366169_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at the specification's
    function of the arguments. -/
theorem algebraic : Cert.algebraic_KernelIdeal_ReferenceIdeal := by
  intro m ρ m' ρ' _ hagree
  refine ⟨fun c => Cert.KernelIdeal.KValue.res m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, -, h4, h5, h6, h7⟩ := hagree c
  rw [Cert.ReferenceIdeal.Read.val_main_v116_eq, Cert.ReferenceIdeal.RefValue.result_eq, h0, h1, h4, h5, h6, h7]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
